-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x16384 : Shape := ⟨2, ![1024, 16384]⟩
abbrev S16384x1024 : Shape := ⟨2, ![16384, 1024]⟩
abbrev S1024 : Shape := ⟨1, ![1024]⟩
abbrev S16384 : Shape := ⟨1, ![16384]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_
  bcast_S_S16384 : S_.BroadcastsInDim S16384 (![] : Fin 0 → Fin S16384.rank)
  reducesTo_S16384_S_d0 : S16384.ReducesTo [0] S_
  reducesTo_S_S_d : S_.ReducesTo [] S_

variable [Facts]

def fn_part2 {F : FTy → Type} [FloatOps F] (main_arg6 : FVec F S_ .f32) (main_v32 : IVec S_ 1) (main_cst_12 : FVec F S_ .f32) : IVec S_ 1 :=
  let main_v33 : IVec S_ 1 := cmpf .une main_arg6 main_cst_12
  let main_v34 : IVec S_ 1 := andi main_v32 main_v33
  main_v34

def fn_part1 {F : FTy → Type} [FloatOps F] (main_arg4 : FVec F S16384 .f32) (main_arg5 : FVec F S1024 .f32) (main_arg6 : FVec F S_ .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_cst_12 : FVec F S_ .f32 := constant S_ .f32 0x00000000#32
  fn_part2 (F := F) main_arg6 main_v32 main_cst_12

def fn {F : FTy → Type} [FloatOps F] (main_arg0 : FVec F S4096x1024 .f32) (main_arg1 : FVec F S1024x16384 .f32) (main_arg2 : FVec F S16384x1024 .f32) (main_arg3 : FVec F S1024 .f32) (main_arg4 : FVec F S16384 .f32) (main_arg5 : FVec F S1024 .f32) (main_arg6 : FVec F S_ .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S4096x1024 : Shape := ⟨2, ![4096, 1024]⟩
abbrev S1024x16384 : Shape := ⟨2, ![1024, 16384]⟩
abbrev S16384x1024 : Shape := ⟨2, ![16384, 1024]⟩
abbrev S1024 : Shape := ⟨1, ![1024]⟩
abbrev S16384 : Shape := ⟨1, ![16384]⟩
abbrev S_ : Shape := ⟨0, ![]⟩
abbrev S1x1024 : Shape := ⟨2, ![1, 1024]⟩
abbrev S1x16384 : Shape := ⟨2, ![1, 16384]⟩
abbrev S4096x16384 : Shape := ⟨2, ![4096, 16384]⟩
abbrev S2048x1024 : Shape := ⟨2, ![2048, 1024]⟩
abbrev S1024x512 : Shape := ⟨2, ![1024, 512]⟩
abbrev S512x1024 : Shape := ⟨2, ![512, 1024]⟩
abbrev S1x512 : Shape := ⟨2, ![1, 512]⟩
abbrev S2048x512 : Shape := ⟨2, ![2048, 512]⟩

abbrev nBuf : Space → Nat
  | .hbm => 23
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x16384, .f32⟩
  | .hbm, ⟨2, _⟩ => ⟨S16384x1024, .f32⟩
  | .hbm, ⟨3, _⟩ => ⟨S1024, .f32⟩
  | .hbm, ⟨4, _⟩ => ⟨S16384, .f32⟩
  | .hbm, ⟨5, _⟩ => ⟨S1024, .f32⟩
  | .hbm, ⟨6, _⟩ => ⟨S_, .f32⟩
  | .hbm, ⟨7, _⟩ => ⟨S1x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S_, .f32⟩
  | .hbm, ⟨14, _⟩ => ⟨S_, .f32⟩
  | .hbm, ⟨15, _⟩ => ⟨S1x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1x16384, .f32⟩
  | .hbm, ⟨21, _⟩ => ⟨S4096x16384, .f32⟩
  | .hbm, ⟨22, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S2048x512, .f32⟩
  | .local _ .vmem, ⟨13, _⟩ => ⟨S2048x512, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S_S1x1024 : S_.BroadcastsInDim S1x1024 (![] : Fin 0 → Fin S1x1024.rank)
  bcast_S_S1024 : S_.BroadcastsInDim S1024 (![] : Fin 0 → Fin S1024.rank)
  shapeCasts_S1024_S1x1024 : S1024.ShapeCasts S1x1024
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  bitsLt_bf16_f32 : FTy.bits .bf16 < FTy.bits .f32
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  dot_S2048x1024_S1024x512_S2048x512_1_0_0_1_n_n_wf : DotDims.WF S2048x1024 S1024x512 S2048x512 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x16384.size a
  hwx0_1 : ∀ i : grid0.Coords, EltTy.bits .f32 = 32 ∨ (Rect.block (s := S1024x16384) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S4096x16384.size a
  hwx0_8 : ∀ i : grid0.Coords, EltTy.bits .f32 = 32 ∨ (Rect.block (s := S4096x16384) S2048x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1024.size a ≤ S4096x1024.size a
  hwx0_9 : ∀ i : grid0.Coords, EltTy.bits .f32 = 32 ∨ (Rect.block (s := S4096x1024) S2048x1024.size (cc0_transform_9 i) (hinb0_9 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S2048x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S2048x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x16384 : Shape := ⟨2, ![1024, 16384]⟩
abbrev S16384x1024 : Shape := ⟨2, ![16384, 1024]⟩
abbrev S1024 : Shape := ⟨1, ![1024]⟩
abbrev S16384 : Shape := ⟨1, ![16384]⟩
abbrev S_ : Shape := ⟨0, ![]⟩
abbrev S1x1024 : Shape := ⟨2, ![1, 1024]⟩
abbrev S4096x16384 : Shape := ⟨2, ![4096, 16384]⟩
abbrev S1x16384 : Shape := ⟨2, ![1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x16384, .f32⟩
  | .hbm, ⟨2, _⟩ => ⟨S16384x1024, .f32⟩
  | .hbm, ⟨3, _⟩ => ⟨S1024, .f32⟩
  | .hbm, ⟨4, _⟩ => ⟨S16384, .f32⟩
  | .hbm, ⟨5, _⟩ => ⟨S1024, .f32⟩
  | .hbm, ⟨6, _⟩ => ⟨S_, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x16384, .f32⟩
  | .hbm, ⟨16, _⟩ => ⟨S1x16384, .f32⟩
  | .hbm, ⟨17, _⟩ => ⟨S4096x16384, .f32⟩
  | .hbm, ⟨18, _⟩ => ⟨S4096x16384, .f32⟩
  | .hbm, ⟨19, _⟩ => ⟨S_, .f32⟩
  | .hbm, ⟨20, _⟩ => ⟨S4096x16384, .f32⟩
  | .hbm, ⟨21, _⟩ => ⟨S4096x16384, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x1024_S1024x16384_S4096x16384_1_0_0_1_n_n_wf : DotDims.WF S4096x1024 S1024x16384 S4096x16384 [1] [0] [0] [1] [] []
  dot_S4096x16384_S16384x1024_S4096x1024_1_0_0_1_n_n_wf : DotDims.WF S4096x16384 S16384x1024 S4096x1024 [1] [0] [0] [1] [] []

variable [Facts₀]

def dot_S4096x1024_S1024x16384_S4096x16384_1_0_0_1_n_n : DotDims S4096x1024 S1024x16384 S4096x16384 where
  lhsContracting := [1]
  rhsContracting := [0]
  lhsNonContracting := [0]
  rhsNonContracting := [1]
  lhsBatch := []
  rhsBatch := []
  wf := dot_S4096x1024_S1024x16384_S4096x16384_1_0_0_1_n_n_wf
def dot_S4096x16384_S16384x1024_S4096x1024_1_0_0_1_n_n : DotDims S4096x16384 S16384x1024 S4096x1024 where
  lhsContracting := [1]
  rhsContracting := [0]
  lhsNonContracting := [0]
  rhsNonContracting := [1]
  lhsBatch := []
  rhsBatch := []
  wf := dot_S4096x16384_S16384x1024_S4096x1024_1_0_0_1_n_n_wf

class Facts : Prop extends Facts₀ where

variable [Facts]
-- ==== Proof.SaeSpec.lean ====
/-
  What the two programs compute, as functions of the seven argument arrays, entry by entry, on the extended reals.

  The arguments: tokens x [4096,1024], encoder E [1024,16384], decoder D [16384,1024], pre-bias pb [1024], latent bias
  lb [16384], mean mc [1024] and the scale s (a scalar). Two outputs: the latent activations z [4096,16384] and the
  reconstruction y [4096,1024].

  The reference centres, scales and shifts a token, (x - mc) * s - pb, encodes it, z = max (xp · E + lb) 0, decodes it,
  z · D + pb, and undoes the preprocessing, (.) / s + mc.  The kernel folds the affine steps into two products with
  precomputed rows: x * s + (-(mc * s + pb)) before the encoder and acc * (1 / s) + (pb / s + mc) after the decoder,
  and it walks the 16384 latent positions in 32 runs of 512, adding each run's partial product to an accumulator that
  starts at zero.
-/
import Idealize.ShloMosaic.PureOps.Ideal
import Idealize.ShloMosaic.Lib.ValueIdx

noncomputable section

open scoped BigOperators

namespace Cert.SaeSpec

open Idealize.ShloMosaic Idealize.ShloMosaic.ValueIdx

abbrev ST : Shape := ⟨2, ![4096, 1024]⟩
abbrev SE : Shape := ⟨2, ![1024, 16384]⟩
abbrev SD : Shape := ⟨2, ![16384, 1024]⟩
abbrev SV : Shape := ⟨1, ![1024]⟩
abbrev SL : Shape := ⟨1, ![16384]⟩
abbrev S0 : Shape := ⟨0, ![]⟩
abbrev SZ : Shape := ⟨2, ![4096, 16384]⟩

/-- Position `q` of run `j` of the latent axis: `512 j + q`. -/
abbrev lat (j : Fin 32) (q : Fin 512) : Fin 16384 := ⟨512 * j.val + q.val, by have := j.isLt; have := q.isLt; omega⟩

/-- Every entry of an array is a real number (neither infinity). -/
def IsReal {ι : Type} (f : ι → EReal) : Prop := ∀ i, ∃ a : ℝ, f i = (a : EReal)

variable (X : ST.Idx → EReal) (E : SE.Idx → EReal) (D : SD.Idx → EReal) (pb : SV.Idx → EReal) (lb : SL.Idx → EReal)
  (mc : SV.Idx → EReal) (s : S0.Idx → EReal)

/-! ## The reference -/

/-- The preprocessed token entry as the reference writes it: `(x - mc) * s - pb`. -/
def xpR (r : Fin 4096) (k : Fin 1024) : EReal := (X (ix2 r k) - mc (ix1 k)) * s ix0 - pb (ix1 k)

/-- The reference's latent activation: `max (Σ_k xp(r,k) E(k,n) + lb n) 0`. -/
def zR (r : Fin 4096) (n : Fin 16384) : EReal :=
  max ((∑ k : Fin 1024, xpR X pb mc s r k * E (ix2 k n)) + lb (ix1 n)) 0

/-- The reference's reconstruction: `(Σ_n z(r,n) D(n,d) + pb d) / s + mc d`. -/
def yR (r : Fin 4096) (d : Fin 1024) : EReal :=
  Ideal.div ((∑ n : Fin 16384, zR X E pb lb mc s r n * D (ix2 n d)) + pb (ix1 d)) (s ix0) + mc (ix1 d)

/-! ## The kernel -/

/-- The preprocessed token entry as the kernel writes it: `x * s + (-(mc * s + pb))`. -/
def xpK (r : Fin 4096) (k : Fin 1024) : EReal := X (ix2 r k) * s ix0 + -(mc (ix1 k) * s ix0 + pb (ix1 k))

/-- The kernel's latent activation. -/
def zK (r : Fin 4096) (n : Fin 16384) : EReal :=
  max ((∑ k : Fin 1024, xpK X pb mc s r k * E (ix2 k n)) + lb (ix1 n)) 0

/-- The partial decoder product of run `j`: `Σ_q z(r, 512 j + q) D(512 j + q, d)`. -/
def partK (r : Fin 4096) (d : Fin 1024) (j : Fin 32) : EReal :=
  ∑ q : Fin 512, zK X E pb lb mc s r (lat j q) * D (ix2 (lat j q) d)

/-- The accumulator after the runs `0 … j-1`: it starts at zero and each run adds its partial product. -/
def accK (r : Fin 4096) (d : Fin 1024) : (j : ℕ) → j ≤ 32 → EReal
  | 0, _ => 0
  | j + 1, h => accK r d j (Nat.le_of_succ_le h) + partK X E D pb lb mc s r d ⟨j, h⟩

/-- The kernel's reconstruction: the full accumulator times `1 / s` plus the row `pb / s + mc`. -/
def yK (r : Fin 4096) (d : Fin 1024) : EReal :=
  accK X E D pb lb mc s r d 32 le_rfl * Ideal.div 1 (s ix0) + (Ideal.div (pb (ix1 d)) (s ix0) + mc (ix1 d))

end Cert.SaeSpec

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.KPay.lean ====
import proofs.«107824_g7980049236240_cont_sun_m_806_42_alg».proof.Proof.Gen.KernelIdeal.Skeleton
import proofs.«107824_g7980049236240_cont_sun_m_806_42_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

/-!
  The kernel body's stored values read at one entry, at the ideal values.

  The body stores five values: the preprocessed token block `x * pscale + pbias` (rows of scale and bias broadcast over
  the block's rows), the zero block, the latent block `max (xp · E + lb) 0`, the accumulator plus the block's partial
  decoder product, and the finished block `acc * qscale + qbias`. Each is read here at entry `(r, c)` of its block as
  the textbook expression of the entries of the loaded blocks: a matrix product into a zero accumulator is the sum over
  the contracted coordinate, a change of float format is the identity.
-/

namespace Cert.KernelIdeal.Pay

open Cert.KernelIdeal Cert.KernelIdeal.Gen Idealize.ShloMosaic Idealize.ShloMosaic.ValueIdx

/-- The encoder product's dimension numbers are those of a plain [2048,1024] × [1024,512] product. -/
theorem dotE_eq : dot_S2048x1024_S1024x512_S2048x512_1_0_0_1_n_n = DotDims.plain 2048 1024 512 := rfl

/-- The decoder product's dimension numbers are those of a plain [2048,512] × [512,1024] product. -/
theorem dotD_eq : dot_S2048x512_S512x1024_S2048x1024_1_0_0_1_n_n = DotDims.plain 2048 512 1024 := rfl

/-- The preprocessed token block at `(r, k)`: `x(r,k) * pscale(0,k) + pbias(0,k)`. -/
theorem pay1_apply (x0 : Vec Ideal S2048x1024 .f32) (x4 x5 : Vec Ideal S1x1024 .f32) (r : Fin 2048) (k : Fin 1024) :
    k0_pay1 (F := Ideal) x0 x4 x5 (ix2 r k) = x0 (ix2 r k) * x4 (ix2 (0 : Fin 1) k) + x5 (ix2 (0 : Fin 1) k) := by
  unfold k0_pay1
  simp only [shapeCast_self]
  show (x0 (ix2 r k) * broadcastTo S2048x1024 x4 _ (ix2 r k)) + broadcastTo S2048x1024 x5 _ (ix2 r k) = _
  rw [broadcastTo_1b_ab_apply, broadcastTo_1b_ab_apply]

/-- The zero block at any entry. -/
theorem pay2_apply (i : S2048x1024.Idx) : k0_pay2 (F := Ideal) i = 0 := by
  unfold k0_pay2
  show Ideal.ofBits .f32 0x00000000#32 = 0
  exact Ideal.ofBits_zero_f32

/-- The latent block at `(r, q)`: `max (Σ_k xp(r,k) E(k,q) + lb(0,q)) 0`. -/
theorem pay3_apply (v3 : Vec Ideal S2048x1024 .bf16) (v4 : Vec Ideal S1024x512 .f32) (v7 : Vec Ideal S1x512 .f32)
    (r : Fin 2048) (q : Fin 512) :
    k0_pay3 (F := Ideal) v3 v4 v7 (ix2 r q)
      = max ((∑ k : Fin 1024, v3 (ix2 r k) * v4 (ix2 k q)) + v7 (ix2 (0 : Fin 1) q)) 0 := by
  unfold k0_pay3
  simp only [shapeCast_self]
  show max (FloatOps.matmul (F := Ideal) (DotDims.plain 2048 1024 512) none v3 (truncf .bf16 v4 bitsLt_bf16_f32)
      (constant S2048x512 .f32 0x00000000#32) (ix2 r q) + broadcastTo S2048x512 v7 broadcasts_S1x512_S2048x512 (ix2 r q))
    (Ideal.ofBits .f32 0x00000000#32) = _
  rw [Cert.PlainDot.matmul_plain_apply, broadcastTo_1b_ab_apply, Ideal.ofBits_zero_f32]
  rfl

/-- The accumulator's next value at `(r, d)`: what it held plus `Σ_q z(r,q) D(q,d)` over the block's 512 latent positions. -/
theorem pay4_apply (v3 : Vec Ideal S2048x1024 .bf16) (v4 : Vec Ideal S1024x512 .f32) (v7 : Vec Ideal S1x512 .f32)
    (v14 : Vec Ideal S2048x1024 .f32) (v17 : Vec Ideal S512x1024 .f32) (r : Fin 2048) (d : Fin 1024) :
    k0_pay4 (F := Ideal) v3 v4 v7 v14 v17 (ix2 r d)
      = v14 (ix2 r d) + ∑ q : Fin 512, k0_pay3 (F := Ideal) v3 v4 v7 (ix2 r q) * v17 (ix2 q d) := by
  unfold k0_pay4
  simp only [shapeCast_self]
  show v14 (ix2 r d) + FloatOps.matmul (F := Ideal) (DotDims.plain 2048 512 1024) none (truncf .bf16 (k0_pay3 (F := Ideal) v3 v4 v7) bitsLt_bf16_f32)
      (truncf .bf16 v17 bitsLt_bf16_f32) (constant S2048x1024 .f32 0x00000000#32) (ix2 r d) = _
  rw [Cert.PlainDot.matmul_plain_apply]
  rfl

/-- The finished block at `(r, d)`: `acc(r,d) * qscale(0,d) + qbias(0,d)`. -/
theorem pay5_apply (v25 : Vec Ideal S2048x1024 .f32) (v27 v31 : Vec Ideal S1x1024 .f32) (r : Fin 2048) (d : Fin 1024) :
    k0_pay5 (F := Ideal) v25 v27 v31 (ix2 r d) = v25 (ix2 r d) * v27 (ix2 (0 : Fin 1) d) + v31 (ix2 (0 : Fin 1) d) := by
  unfold k0_pay5
  simp only [shapeCast_self]
  show (v25 (ix2 r d) * broadcastTo S2048x1024 v27 _ (ix2 r d)) + broadcastTo S2048x1024 v31 _ (ix2 r d) = _
  rw [broadcastTo_1b_ab_apply, broadcastTo_1b_ab_apply]

end Cert.KernelIdeal.Pay

end
-- ==== Proof.KPiece.lean ====
import proofs.«107824_g7980049236240_cont_sun_m_806_42_alg».proof.Proof.Gen.KernelIdeal.Frame
import Idealize.ShloMosaic.Lib.Pipeline.Value
import Idealize.ShloMosaic.Lib.Tactic

set_option maxRecDepth 16384

noncomputable section

/-!
  What each control case of the kernel body leaves behind, as the body's own stored values.

  The body has three cases along the latent axis: the first run (it preprocesses the token block into the carried
  buffer and zeroes the accumulator before the common part), a middle run (the common part only: the latent block, and
  the accumulator plus the block's partial decoder product), and the last run (the common part, then the accumulator
  scaled and shifted). The frame's run found, per case, the pieces each buffer ends with; read back, each buffer holds
  its last whole-block store's value, with every load of a buffer stored earlier in the same run reading that store.
-/

namespace Cert.KernelIdeal.Piece

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First run: the carried buffer ends holding the preprocessed token block. -/
theorem sout_A (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : cond0_0 i) (hc1 : ¬cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay1 x0 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S2048x1024) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

/-- First run: the latent output block is computed from the token block just preprocessed. -/
theorem out_A_8 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : cond0_0 i) (hc1 : ¬cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay3 (k0_pay1 x0 x4 x5) x1 x3 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S2048x512) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

/-- First run: the accumulator is the zero block plus the first partial decoder product. -/
theorem out_A_9 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : cond0_0 i) (hc1 : ¬cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 (k0_pay1 x0 x4 x5) x1 x3 k0_pay2 x2 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S2048x1024) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

/-- Middle run: the latent output block is computed from the carried token block. -/
theorem out_B_8 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : ¬cond0_0 i) (hc1 : ¬cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) (xo9 : Vec F S2048x1024 .f32) (xs0 : Vec F S2048x1024 .bf16) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0 = k0_pay3 xs0 x1 x3 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0)]
  unfold kernelRun0_B
  dsimp only
  sl_unfold_words
  rw [View.canon_cons_unit_zero (S := S2048x512) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

/-- Middle run: the accumulator gains the run's partial decoder product. -/
theorem out_B_9 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : ¬cond0_0 i) (hc1 : ¬cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) (xo9 : Vec F S2048x1024 .f32) (xs0 : Vec F S2048x1024 .bf16) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0 = k0_pay4 xs0 x1 x3 xo9 x2 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0)]
  unfold kernelRun0_B
  dsimp only
  sl_unfold_words
  rw [View.canon_cons_unit_zero (S := S2048x1024) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

/-- Last run: the latent output block is computed from the carried token block. -/
theorem out_C_8 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : ¬cond0_0 i) (hc1 : cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) (xo9 : Vec F S2048x1024 .f32) (xs0 : Vec F S2048x1024 .bf16) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0 = k0_pay3 xs0 x1 x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0)]
  unfold kernelRun0_C
  dsimp only
  sl_unfold_words
  rw [View.canon_cons_unit_zero (S := S2048x512) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

/-- Last run: the full accumulator is scaled and shifted. -/
theorem out_C_9 (c : Dev nD) (i : grid0.Coords) (arg2 : Memref sig .tc .vmem S2048x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S2048x512 .f32) (harg10 : arg10.IsWhole) (arg11 : Memref sig .tc .vmem S2048x1024 .f32) (harg11 : arg11.IsWhole) (arg12 : Memref sig .tc .vmem S2048x1024 .bf16) (harg12 : arg12.IsWhole) (hc0 : ¬cond0_0 i) (hc1 : cond0_1 i) (x0 : Vec F S2048x1024 .f32) (x1 : Vec F S1024x512 .f32) (x2 : Vec F S512x1024 .f32) (x3 : Vec F S1x512 .f32) (x4 : Vec F S1x1024 .f32) (x5 : Vec F S1x1024 .f32) (x6 : Vec F S1x1024 .f32) (x7 : Vec F S1x1024 .f32) (xo9 : Vec F S2048x1024 .f32) (xs0 : Vec F S2048x1024 .bf16) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0 = k0_pay5 (k0_pay4 xs0 x1 x3 xo9 x2) x6 x7 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xs0)]
  unfold kernelRun0_C
  dsimp only
  sl_unfold_words
  rw [View.canon_cons_unit_zero (S := S2048x1024) hz]
  simp only [View.readCov_unit_zero (S := S2048x1024) _ hz, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S2048x1024) hz, View.ld_unit_zero (S := S1x1024) hz, View.ld_unit_zero (S := S1024x512) hz, View.ld_unit_zero (S := S512x1024) hz, View.ld_unit_zero (S := S1x512) hz, View.ld_unit_zero (S := S2048x512) hz]

end Cert.KernelIdeal.Piece

end
-- ==== Proof.KBlocks.lean ====
/-
  The kernel's windows read at an entry, and the two output windows' covers.

  The grid has 2 × 32 = 64 points; point t has row block t / 32 and latent run t % 32. Each window's block at point t
  is the rectangle of its array at block index × block size, so an entry of the block is the array's entry at
  index × size + the coordinate inside the block: token rows 2048 (t / 32) + r, latent positions 512 (t % 32) + q,
  and the whole of each one-row array. The latent output's blocks, one per point, tile its array; the reconstruction's
  blocks written back at the last run of each row block (t % 32 = 31) tile its array.
-/
import proofs.«107824_g7980049236240_cont_sun_m_806_42_alg».proof.Proof.Gen.KernelIdeal.Frame.Runs
import proofs.«107824_g7980049236240_cont_sun_m_806_42_alg».proof.Proof.Gen.KernelIdeal.Points
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ) (c : Dev nD) (t : Fin cfg0.N)

/-- The token row of row r of the row block of point t: 2048 (t / 32) + r. -/
abbrev tokRow (t : Fin cfg0.N) (r : Fin 2048) : Fin 4096 :=
  ⟨2048 * (t.val / 32) + r.val, by have := t.isLt; have : cfg0.N = 64 := N_0; have := r.isLt; omega⟩

/-- The latent position of position q of the latent run of point t: 512 (t % 32) + q. -/
abbrev latPos (t : Fin cfg0.N) (q : Fin 512) : Fin 16384 :=
  ⟨512 * (t.val % 32) + q.val, by have := q.isLt; omega⟩

/-! ## The block indices at a point, decided over the 64 points -/

/-- The token window's block index at point t is (t / 32, 0). -/
theorem idx0 : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)
/-- The encoder window's block index at point t is (0, t % 32). -/
theorem idx1 : ∀ t : Fin cfg0.N, win0_1.index t (0 : Fin 2) = 0 ∧ win0_1.index t (1 : Fin 2) = t.val % 32 :=
  (by decide +kernel : ∀ t : Fin grid0.N, win0_1.index t (0 : Fin 2) = 0 ∧ win0_1.index t (1 : Fin 2) = t.val % 32)
/-- The decoder window's block index at point t is (t % 32, 0). -/
theorem idx2 : ∀ t : Fin cfg0.N, win0_2.index t (0 : Fin 2) = t.val % 32 ∧ win0_2.index t (1 : Fin 2) = 0 :=
  (by decide +kernel : ∀ t : Fin grid0.N, win0_2.index t (0 : Fin 2) = t.val % 32 ∧ win0_2.index t (1 : Fin 2) = 0)
/-- The latent-bias window's block index at point t is (0, t % 32). -/
theorem idx3 : ∀ t : Fin cfg0.N, win0_3.index t (0 : Fin 2) = 0 ∧ win0_3.index t (1 : Fin 2) = t.val % 32 :=
  (by decide +kernel : ∀ t : Fin grid0.N, win0_3.index t (0 : Fin 2) = 0 ∧ win0_3.index t (1 : Fin 2) = t.val % 32)
/-- The scale row's window has block index (0, 0) at every point. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- The shift row's window has block index (0, 0) at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- The inverse-scale row's window has block index (0, 0) at every point. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- The output-shift row's window has block index (0, 0) at every point. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- The latent output window's block index at point t is (t / 32, t % 32). -/
theorem idx8 : ∀ t : Fin cfg0.N, win0_8.index t (0 : Fin 2) = t.val / 32 ∧ win0_8.index t (1 : Fin 2) = t.val % 32 :=
  (by decide +kernel : ∀ t : Fin grid0.N, win0_8.index t (0 : Fin 2) = t.val / 32 ∧ win0_8.index t (1 : Fin 2) = t.val % 32)
/-- The reconstruction window's block index at point t is (t / 32, 0). -/
theorem idx9 : ∀ t : Fin cfg0.N, win0_9.index t (0 : Fin 2) = t.val / 32 ∧ win0_9.index t (1 : Fin 2) = 0 :=
  (by decide +kernel : ∀ t : Fin grid0.N, win0_9.index t (0 : Fin 2) = t.val / 32 ∧ win0_9.index t (1 : Fin 2) = 0)

/-! ## The input windows' blocks at an entry -/

/-- The token window's block at point t, entry (r, k): the token array at (2048 (t / 32) + r, k). -/
theorem iblk0 (r : Fin 2048) (k : Fin 1024) :
    (iblk m c 0 t : Vec F S2048x1024 .f32) (ix2 r k) = V m c main_arg0 (ix2 (tokRow t r) k) := by
  have hi := idx0 t
  unfold iblk
  rw [View.read_apply]
  show V m c main_arg0 _ = V m c main_arg0 _
  congr 1
  funext a
  apply Fin.ext
  match a with
  | ⟨0, _⟩ => show win0_0.index t 0 * 2048 + 1 * r.val = 2048 * (t.val / 32) + r.val; rw [hi.1]; omega
  | ⟨1, _⟩ => show win0_0.index t 1 * 1024 + 1 * k.val = k.val; rw [hi.2]; omega

/-- The encoder window's block at point t, entry (k, q): the encoder at (k, 512 (t % 32) + q). -/
theorem iblk1 (k : Fin 1024) (q : Fin 512) :
    (iblk m c 1 t : Vec F S1024x512 .f32) (ix2 k q) = V m c main_arg1 (ix2 k (latPos t q)) := by
  have hi := idx1 t
  unfold iblk
  rw [View.read_apply]
  show V m c main_arg1 _ = V m c main_arg1 _
  congr 1
  funext a
  apply Fin.ext
  match a with
  | ⟨0, _⟩ => show win0_1.index t 0 * 1024 + 1 * k.val = k.val; rw [hi.1]; omega
  | ⟨1, _⟩ => show win0_1.index t 1 * 512 + 1 * q.val = 512 * (t.val % 32) + q.val; rw [hi.2]; omega

/-- The decoder window's block at point t, entry (q, d): the decoder at (512 (t % 32) + q, d). -/
theorem iblk2 (q : Fin 512) (d : Fin 1024) :
    (iblk m c 2 t : Vec F S512x1024 .f32) (ix2 q d) = V m c main_arg2 (ix2 (latPos t q) d) := by
  have hi := idx2 t
  unfold iblk
  rw [View.read_apply]
  show V m c main_arg2 _ = V m c main_arg2 _
  congr 1
  funext a
  apply Fin.ext
  match a with
  | ⟨0, _⟩ => show win0_2.index t 0 * 512 + 1 * q.val = 512 * (t.val % 32) + q.val; rw [hi.1]; omega
  | ⟨1, _⟩ => show win0_2.index t 1 * 1024 + 1 * d.val = d.val; rw [hi.2]; omega

/-- The latent-bias window's block at point t, entry (0, q): the latent-bias row at (0, 512 (t % 32) + q). -/
theorem iblk3 (q : Fin 512) :
    (iblk m c 3 t : Vec F S1x512 .f32) (ix2 (0 : Fin 1) q) = V m c main_v12 (ix2 (0 : Fin 1) (latPos t q)) := by
  have hi := idx3 t
  unfold iblk
  rw [View.read_apply]
  show V m c main_v12 _ = V m c main_v12 _
  congr 1
  funext a
  apply Fin.ext
  match a with
  | ⟨0, _⟩ => show win0_3.index t 0 * 1 + 1 * 0 = 0; rw [hi.1]
  | ⟨1, _⟩ => show win0_3.index t 1 * 512 + 1 * q.val = 512 * (t.val % 32) + q.val; rw [hi.2]; omega

/-- The scale row's window holds the whole row at every point. -/
theorem iblk4 (k : Fin 1024) :
    (iblk m c 4 t : Vec F S1x1024 .f32) (ix2 (0 : Fin 1) k) = V m c main_v0 (ix2 (0 : Fin 1) k) := by
  have hi := idx4 t
  unfold iblk
  rw [View.read_apply]
  show V m c main_v0 _ = V m c main_v0 _
  congr 1
  funext a
  apply Fin.ext
  match a with
  | ⟨0, _⟩ => show win0_4.index t 0 * 1 + 1 * 0 = 0; rw [hi.1]
  | ⟨1, _⟩ => show win0_4.index t 1 * 1024 + 1 * k.val = k.val; rw [hi.2]; omega

/-- The shift row's window holds the whole row at every point. -/
theorem iblk5 (k : Fin 1024) :
    (iblk m c 5 t : Vec F S1x1024 .f32) (ix2 (0 : Fin 1) k) = V m c main_v5 (ix2 (0 : Fin 1) k) := by
  have hi := idx5 t
  unfold iblk
  rw [View.read_apply]
  show V m c main_v5 _ = V m c main_v5 _
  congr 1
  funext a
  apply Fin.ext
  match a with
  | ⟨0, _⟩ => show win0_5.index t 0 * 1 + 1 * 0 = 0; rw [hi.1]
  | ⟨1, _⟩ => show win0_5.index t 1 * 1024 + 1 * k.val = k.val; rw [hi.2]; omega

/-- The inverse-scale row's window holds the whole row at every point. -/
theorem iblk6 (k : Fin 1024) :
    (iblk m c 6 t : Vec F S1x1024 .f32) (ix2 (0 : Fin 1) k) = V m c main_v7 (ix2 (0 : Fin 1) k) := by
  have hi := idx6 t
  unfold iblk
  rw [View.read_apply]
  show V m c main_v7 _ = V m c main_v7 _
  congr 1
  funext a
  apply Fin.ext
  match a with
  | ⟨0, _⟩ => show win0_6.index t 0 * 1 + 1 * 0 = 0; rw [hi.1]
  | ⟨1, _⟩ => show win0_6.index t 1 * 1024 + 1 * k.val = k.val; rw [hi.2]; omega

/-- The output-shift row's window holds the whole row at every point. -/
theorem iblk7 (k : Fin 1024) :
    (iblk m c 7 t : Vec F S1x1024 .f32) (ix2 (0 : Fin 1) k) = V m c main_v11 (ix2 (0 : Fin 1) k) := by
  have hi := idx7 t
  unfold iblk
  rw [View.read_apply]
  show V m c main_v11 _ = V m c main_v11 _
  congr 1
  funext a
  apply Fin.ext
  match a with
  | ⟨0, _⟩ => show win0_7.index t 0 * 1 + 1 * 0 = 0; rw [hi.1]
  | ⟨1, _⟩ => show win0_7.index t 1 * 1024 + 1 * k.val = k.val; rw [hi.2]; omega

/-! ## The output windows: an array read through a point's block, and the covers -/

/-- An array of the latent output's shape read through point t's block, entry (r, q): the array at
    (2048 (t / 32) + r, 512 (t % 32) + q). -/
theorem blk8_read (G : S4096x16384.Idx → Elt F .f32) (r : Fin 2048) (q : Fin 512) :
    (((cfg0.win 8).blk t).view.read (Elt F) G : Vec F S2048x512 .f32) (ix2 r q) = G (ix2 (tokRow t r) (latPos t q)) := by
  have hi := idx8 t
  rw [View.read_apply]
  show G _ = G _
  congr 1
  funext a
  apply Fin.ext
  match a with
  | ⟨0, _⟩ => show win0_8.index t 0 * 2048 + 1 * r.val = 2048 * (t.val / 32) + r.val; rw [hi.1]; omega
  | ⟨1, _⟩ => show win0_8.index t 1 * 512 + 1 * q.val = 512 * (t.val % 32) + q.val; rw [hi.2]; omega

/-- An array of the reconstruction's shape read through point t's block, entry (r, d): the array at
    (2048 (t / 32) + r, d). -/
theorem blk9_read (G : S4096x1024.Idx → Elt F .f32) (r : Fin 2048) (d : Fin 1024) :
    (((cfg0.win 9).blk t).view.read (Elt F) G : Vec F S2048x1024 .f32) (ix2 r d) = G (ix2 (tokRow t r) d) := by
  have hi := idx9 t
  rw [View.read_apply]
  show G _ = G _
  congr 1
  funext a
  apply Fin.ext
  match a with
  | ⟨0, _⟩ => show win0_9.index t 0 * 2048 + 1 * r.val = 2048 * (t.val / 32) + r.val; rw [hi.1]; omega
  | ⟨1, _⟩ => show win0_9.index t 1 * 1024 + 1 * d.val = d.val; rw [hi.2]; omega

/-- Every entry (a, n) of the latent output lies in the block written back at the point 32 (a / 2048) + n / 512. -/
theorem cover8 : ∀ i : S4096x16384.Idx, ∃ t : Fin cfg0.N, (cfg0.win 8).flush t = true ∧ i ∈ ((cfg0.win 8).blk t).view.set := by
  intro i
  have h0 : (i 0).val < 4096 := idx2_lt0 i
  have h1 : (i 1).val < 16384 := idx2_lt1 i
  obtain ⟨t, ht⟩ : ∃ t : Fin cfg0.N, t.val = 32 * ((i 0).val / 2048) + (i 1).val / 512 :=
    ⟨⟨32 * ((i 0).val / 2048) + (i 1).val / 512, by have : cfg0.N = 64 := N_0; omega⟩, rfl⟩
  refine ⟨t, flush0_8 t, ?_⟩
  have hi := idx8 t
  show i ∈ ((View.whole main_v13_0).slice (win0_8.rect t)).set
  rw [View.set_slice_whole, Rect.mem_set_unit]
  intro a
  match a with
  | ⟨0, _⟩ =>
    show win0_8.index t 0 * 2048 ≤ (i 0).val ∧ (i 0).val < win0_8.index t 0 * 2048 + 2048
    rw [hi.1]; omega
  | ⟨1, _⟩ =>
    show win0_8.index t 1 * 512 ≤ (i 1).val ∧ (i 1).val < win0_8.index t 1 * 512 + 512
    rw [hi.2]; omega

/-- Every entry (a, d) of the reconstruction lies in the block written back at the last run of its row block, the
    point 32 (a / 2048) + 31. -/
theorem cover9 : ∀ i : S4096x1024.Idx, ∃ t : Fin cfg0.N, (cfg0.win 9).flush t = true ∧ i ∈ ((cfg0.win 9).blk t).view.set := by
  intro i
  have h0 : (i 0).val < 4096 := idx2_lt0 i
  have h1 : (i 1).val < 1024 := idx2_lt1 i
  obtain ⟨t, ht⟩ : ∃ t : Fin cfg0.N, t.val = 32 * ((i 0).val / 2048) + 31 :=
    ⟨⟨32 * ((i 0).val / 2048) + 31, by have : cfg0.N = 64 := N_0; omega⟩, rfl⟩
  refine ⟨t, (flush0_9 t).mpr (by omega), ?_⟩
  have hi := idx9 t
  show i ∈ ((View.whole main_v13_1).slice (win0_9.rect t)).set
  rw [View.set_slice_whole, Rect.mem_set_unit]
  intro a
  match a with
  | ⟨0, _⟩ =>
    show win0_9.index t 0 * 2048 ≤ (i 0).val ∧ (i 0).val < win0_9.index t 0 * 2048 + 2048
    rw [hi.1]; omega
  | ⟨1, _⟩ =>
    show win0_9.index t 1 * 1024 ≤ (i 1).val ∧ (i 1).val < win0_9.index t 1 * 1024 + 1024
    rw [hi.2]; omega

end Cert.KernelIdeal.Blocks

end
-- ==== Proof.KHostRows.lean ====
/-
  The five rows the kernel's host operations compute before its one region, read at an entry on the extended reals.

  Before the region the host program forms, from the pre-bias pb [1024], the latent bias lb [16384], the mean
  mc [1024] and the scalar scale s:
  * the scale row, s broadcast to [1, 1024]: every entry is s;
  * the bias row -(mc * s + pb), formed on [1024] with s broadcast, then reshaped to [1, 1024];
  * the reciprocal row, 1 / s broadcast to [1, 1024], where 1 is the single-precision pattern of 1.0;
  * the undo row pb / s + mc, formed on [1024] with s broadcast, then reshaped to [1, 1024];
  * the latent bias reshaped from [16384] to [1, 16384].
  Each buffer after the host operations is first identified as the composed whole-array term of the operations that
  write it; that term is then read at the entry (0, k): a reshape [a] → [1, a] reads the operand at k, a broadcast of a
  scalar reads the scalar, and the elementwise operations act entry by entry.

  In the statements mulE, addE and negE are the product, the sum and the negation of the extended reals.
-/
import proofs.«107824_g7980049236240_cont_sun_m_806_42_alg».proof.Proof.Gen.KernelIdeal.Frame.Runs
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal.Laws

noncomputable section

namespace Cert.KernelIdeal.HostRows

open Cert.KernelIdeal Cert.KernelIdeal.Gen Idealize.ShloMosaic Idealize.ShloMosaic.TcCoe Idealize.ShloMosaic.ValueIdx
open Idealize.ShloMosaic.StableHlo

local notation "mulE" => (HMul.hMul : EReal → EReal → EReal)
local notation "addE" => (HAdd.hAdd : EReal → EReal → EReal)
local notation "negE" => (Neg.neg : EReal → EReal)

/-- The single-precision pattern of `1.0` denotes the real number one. -/
theorem ofBits_one : Ideal.ofBits .f32 0x3F800000#32 = 1 := by
  simp [Ideal.ofBits, Ideal.ieee, -EReal.coe_mul]; norm_num

/-- A scalar broadcast to `[1024]` reads, at every entry, the scalar. -/
theorem bcast_vec_apply (x : S_.Idx → EReal) (k : Fin 1024) :
    broadcastInDim S1024 ![] bcast_S_S1024 x (ix1 k) = x ix0 :=
  broadcastInDim_apply ![] bcast_S_S1024 x (ix1 k) ix0 (fun a => a.elim0)

/-- A scalar broadcast to `[1, 1024]` reads, at every entry, the scalar. -/
theorem bcast_row_apply (x : S_.Idx → EReal) (k : Fin 1024) :
    broadcastInDim S1x1024 ![] bcast_S_S1x1024 x (ix2 (0 : Fin 1) k) = x ix0 :=
  broadcastInDim_apply ![] bcast_S_S1x1024 x (ix2 (0 : Fin 1) k) ix0 (fun a => a.elim0)

variable (m : (ℓ : Loc nD τ sig) → Buf (Elt Ideal) ℓ) (c : Dev nD)

/-- The scale row: every entry is the scale `s`. -/
theorem V_pscale (k : Fin 1024) :
    (V m c main_v0 : S1x1024.Idx → EReal) (ix2 (0 : Fin 1) k) = m ((c : Thread nD τ).loc main_arg6) ix0 := by
  have e : (V m c main_v0 : S1x1024.Idx → EReal)
      = broadcastInDim S1x1024 ![] bcast_S_S1x1024 (m ((c : Thread nD τ).loc main_arg6) : S_.Idx → EReal) := by
    dsimp only [Gen.V, Gen.hostOps0]; after_results
  rw [e]
  exact bcast_row_apply _ k

/-- The bias row: entry `k` is `-(mc k * s + pb k)`. -/
theorem V_pbias (k : Fin 1024) :
    (V m c main_v5 : S1x1024.Idx → EReal) (ix2 (0 : Fin 1) k)
      = negE (addE (mulE (m ((c : Thread nD τ).loc main_arg5) (ix1 k)) (m ((c : Thread nD τ).loc main_arg6) ix0))
          (m ((c : Thread nD τ).loc main_arg3) (ix1 k))) := by
  have e : (V m c main_v5 : S1x1024.Idx → EReal)
      = shapeCast S1x1024
          (Host.negf (F := Ideal) (s := S1024) (φ := .f32)
            (addf (F := Ideal) (s := S1024) (φ := .f32)
              (mulf (F := Ideal) (s := S1024) (φ := .f32) (m ((c : Thread nD τ).loc main_arg5))
                (broadcastInDim S1024 ![] bcast_S_S1024 (m ((c : Thread nD τ).loc main_arg6) : S_.Idx → EReal)))
              (m ((c : Thread nD τ).loc main_arg3))))
          shapeCasts_S1024_S1x1024 := by
    dsimp only [Gen.V, Gen.hostOps0]; after_results; rfl
  rw [e, shapeCast_a_1a_apply]
  have hb : broadcastInDim S1024 ![] bcast_S_S1024 (m ((c : Thread nD τ).loc main_arg6) : S_.Idx → EReal) (ix1 k)
      = m ((c : Thread nD τ).loc main_arg6) ix0 := bcast_vec_apply _ k
  unfold Host.negf
  simp only [Ideal.hostNegf_def, Ideal.negf_def, addf_apply, mulf_apply]
  rw [hb]

/-- The reciprocal row: every entry is `1 / s`. -/
theorem V_qscale (d : Fin 1024) :
    (V m c main_v7 : S1x1024.Idx → EReal) (ix2 (0 : Fin 1) d)
      = Ideal.div 1 (m ((c : Thread nD τ).loc main_arg6) ix0) := by
  have e : (V m c main_v7 : S1x1024.Idx → EReal)
      = broadcastInDim S1x1024 ![] bcast_S_S1x1024
          (Host.divf (F := Ideal) (s := S_) (φ := .f32) (constant (F := Ideal) S_ .f32 0x3F800000#32)
            (m ((c : Thread nD τ).loc main_arg6))) := by
    dsimp only [Gen.V, Gen.hostOps0]; after_results
  rw [e, bcast_row_apply]
  unfold Host.divf
  simp only [Ideal.hostDivf_def, constant_apply, ofBits_one]

/-- The undo row: entry `d` is `pb d / s + mc d`. -/
theorem V_qbias (d : Fin 1024) :
    (V m c main_v11 : S1x1024.Idx → EReal) (ix2 (0 : Fin 1) d)
      = addE (Ideal.div (m ((c : Thread nD τ).loc main_arg3) (ix1 d)) (m ((c : Thread nD τ).loc main_arg6) ix0))
          (m ((c : Thread nD τ).loc main_arg5) (ix1 d)) := by
  have e : (V m c main_v11 : S1x1024.Idx → EReal)
      = shapeCast S1x1024
          (addf (F := Ideal) (s := S1024) (φ := .f32)
            (Host.divf (F := Ideal) (s := S1024) (φ := .f32) (m ((c : Thread nD τ).loc main_arg3))
              (broadcastInDim S1024 ![] bcast_S_S1024 (m ((c : Thread nD τ).loc main_arg6) : S_.Idx → EReal)))
            (m ((c : Thread nD τ).loc main_arg5)))
          shapeCasts_S1024_S1x1024 := by
    dsimp only [Gen.V, Gen.hostOps0]; after_results; rfl
  rw [e, shapeCast_a_1a_apply]
  have hb : broadcastInDim S1024 ![] bcast_S_S1024 (m ((c : Thread nD τ).loc main_arg6) : S_.Idx → EReal) (ix1 d)
      = m ((c : Thread nD τ).loc main_arg6) ix0 := bcast_vec_apply _ d
  unfold Host.divf
  simp only [Ideal.hostDivf_def, addf_apply]
  rw [hb]

/-- The latent bias as a row: entry `n` is `lb n`. -/
theorem V_lb (n : Fin 16384) :
    (V m c main_v12 : S1x16384.Idx → EReal) (ix2 (0 : Fin 1) n) = m ((c : Thread nD τ).loc main_arg4) (ix1 n) := by
  have e : (V m c main_v12 : S1x16384.Idx → EReal)
      = shapeCast S1x16384 (m ((c : Thread nD τ).loc main_arg4) : S16384.Idx → EReal) shapeCasts_S16384_S1x16384 := by
    dsimp only [Gen.V, Gen.hostOps0]; after_results; rfl
  rw [e, shapeCast_a_1a_apply]

end Cert.KernelIdeal.HostRows

end
-- ==== Proof.KInv.lean ====
import proofs.«107824_g7980049236240_cont_sun_m_806_42_alg».proof.Proof.SaeSpec
import proofs.«107824_g7980049236240_cont_sun_m_806_42_alg».proof.Proof.KPay
import proofs.«107824_g7980049236240_cont_sun_m_806_42_alg».proof.Proof.KPiece
import proofs.«107824_g7980049236240_cont_sun_m_806_42_alg».proof.Proof.KBlocks
import proofs.«107824_g7980049236240_cont_sun_m_806_42_alg».proof.Proof.KHostRows
import proofs.«107824_g7980049236240_cont_sun_m_806_42_alg».proof.Proof.Gen.KernelIdeal.Frame

set_option maxRecDepth 16384

noncomputable section

open scoped BigOperators

/-!
  What the kernel's buffers hold after each grid point, as blocks of the specification's functions.

  Point `t` of the 2 × 32 grid works on token rows `2048 (t / 32) + r` and on latent run `t % 32`. After it, the
  carried buffer holds the preprocessed tokens of those rows (written at the run's first point, kept since), the latent
  output block holds the activations of those rows at the run's 512 positions, and the reconstruction block holds the
  accumulator after `t % 32 + 1` runs — or, at the last run, the finished reconstruction. Proved by induction on the
  point: a point's case reads the carried buffer and the accumulator as the point before left them.
-/

namespace Cert.KernelIdeal.Inv

open Cert.KernelIdeal Cert.KernelIdeal.Gen Idealize.ShloMosaic Idealize.ShloMosaic.TcCoe Idealize.ShloMosaic.ValueIdx
open Cert.SaeSpec Cert.KernelIdeal.Blocks

section Blocks

variable (X : ST.Idx → EReal) (E : SE.Idx → EReal) (D : SD.Idx → EReal) (pb : SV.Idx → EReal) (lb : SL.Idx → EReal) (mc : SV.Idx → EReal) (s : S0.Idx → EReal) (t : Fin cfg0.N)

/-- The preprocessed token block of point `t`'s rows. -/
def xpBlk : Vec Ideal S2048x1024 .bf16 := fun y => xpK X pb mc s (tokRow t (y 0)) (y 1)

/-- The latent activations of point `t`'s rows at its run's positions. -/
def zBlk : Vec Ideal S2048x512 .f32 := fun y => zK X E pb lb mc s (tokRow t (y 0)) (latPos t (y 1))

/-- The accumulator of point `t`'s rows after `j` runs. -/
def accBlk (j : ℕ) (hj : j ≤ 32) : Vec Ideal S2048x1024 .f32 := fun y => accK X E D pb lb mc s (tokRow t (y 0)) (y 1) j hj

/-- The finished reconstruction of point `t`'s rows. -/
def yBlk : Vec Ideal S2048x1024 .f32 := fun y => yK X E D pb lb mc s (tokRow t (y 0)) (y 1)

/-- The reconstruction block after point `t`: the finished rows at a last run, else the accumulator after `t % 32 + 1` runs. -/
def recBlk : Vec Ideal S2048x1024 .f32 :=
  if t.val % 32 = 31 then yBlk X E D pb lb mc s t
  else accBlk X E D pb lb mc s t (t.val % 32 + 1) (by have := Nat.mod_lt t.val (by decide : 0 < 32); omega)

/-! ## The stored values as blocks of the specification -/

/-- The token block times the scale row plus the bias row is the preprocessed token block. -/
theorem pay1_blk (x0 : Vec Ideal S2048x1024 .f32) (x4 x5 : Vec Ideal S1x1024 .f32)
    (h0 : ∀ r k, x0 (ix2 r k) = X (ix2 (tokRow t r) k))
    (h4 : ∀ k, x4 (ix2 (0 : Fin 1) k) = s ix0)
    (h5 : ∀ k, x5 (ix2 (0 : Fin 1) k) = -(mc (ix1 k) * s ix0 + pb (ix1 k))) :
    k0_pay1 (F := Ideal) x0 x4 x5 = xpBlk X pb mc s t := by
  funext y
  obtain ⟨r, k, rfl⟩ : ∃ (r : Fin 2048) (k : Fin 1024), y = ix2 r k := ⟨y 0, y 1, eq_ix2 y⟩
  rw [Pay.pay1_apply, h0, h4, h5]
  rfl

/-- The encoder product of the preprocessed block plus the bias row, clipped at zero, is the latent block. -/
theorem pay3_blk (v3 : Vec Ideal S2048x1024 .bf16) (v4 : Vec Ideal S1024x512 .f32) (v7 : Vec Ideal S1x512 .f32)
    (h3 : v3 = xpBlk X pb mc s t)
    (h4 : ∀ k q, v4 (ix2 k q) = E (ix2 k (latPos t q)))
    (h7 : ∀ q, v7 (ix2 (0 : Fin 1) q) = lb (ix1 (latPos t q))) :
    k0_pay3 (F := Ideal) v3 v4 v7 = zBlk X E pb lb mc s t := by
  funext y
  obtain ⟨r, q, rfl⟩ : ∃ (r : Fin 2048) (q : Fin 512), y = ix2 r q := ⟨y 0, y 1, eq_ix2 y⟩
  rw [Pay.pay3_apply, h7, h3]
  simp only [h4]
  rfl

/-- The accumulator after `t % 32` runs plus the run's partial decoder product is the accumulator after one more run. -/
theorem pay4_blk (v3 : Vec Ideal S2048x1024 .bf16) (v4 : Vec Ideal S1024x512 .f32) (v7 : Vec Ideal S1x512 .f32)
    (v14 : Vec Ideal S2048x1024 .f32) (v17 : Vec Ideal S512x1024 .f32)
    (h3 : k0_pay3 (F := Ideal) v3 v4 v7 = zBlk X E pb lb mc s t)
    (h14 : v14 = accBlk X E D pb lb mc s t (t.val % 32) (Nat.le_of_lt (Nat.mod_lt _ (by decide))))
    (h17 : ∀ q d, v17 (ix2 q d) = D (ix2 (latPos t q) d)) :
    k0_pay4 (F := Ideal) v3 v4 v7 v14 v17
      = accBlk X E D pb lb mc s t (t.val % 32 + 1) (by have := Nat.mod_lt t.val (by decide : 0 < 32); omega) := by
  funext y
  obtain ⟨r, d, rfl⟩ : ∃ (r : Fin 2048) (d : Fin 1024), y = ix2 r d := ⟨y 0, y 1, eq_ix2 y⟩
  rw [Pay.pay4_apply, h3, h14]
  simp only [h17]
  rfl

/-- The full accumulator times the scale row plus the bias row is the finished reconstruction. -/
theorem pay5_blk (v25 : Vec Ideal S2048x1024 .f32) (v27 v31 : Vec Ideal S1x1024 .f32)
    (h25 : v25 = accBlk X E D pb lb mc s t 32 le_rfl)
    (h27 : ∀ d, v27 (ix2 (0 : Fin 1) d) = Ideal.div 1 (s ix0))
    (h31 : ∀ d, v31 (ix2 (0 : Fin 1) d) = Ideal.div (pb (ix1 d)) (s ix0) + mc (ix1 d)) :
    k0_pay5 (F := Ideal) v25 v27 v31 = yBlk X E D pb lb mc s t := by
  funext y
  obtain ⟨r, d, rfl⟩ : ∃ (r : Fin 2048) (d : Fin 1024), y = ix2 r d := ⟨y 0, y 1, eq_ix2 y⟩
  rw [Pay.pay5_apply, h25, h27, h31]
  rfl

/-! ## From one point to the next -/

/-- The accumulator depends on the row and the number of runs only through their values. -/
theorem accK_congr {r r' : Fin 4096} (d : Fin 1024) {j j' : ℕ} (hr : r = r') (hj : j = j')
    (h : j ≤ 32) (h' : j' ≤ 32) : accK X E D pb lb mc s r d j h = accK X E D pb lb mc s r' d j' h' := by
  subst hr; subst hj; rfl

/-- Within a run of 32 points the token rows do not move: the point before a point that is not a run's first has the same rows. -/
theorem tokRow_prev (h0 : ¬t.val % 32 = 0) (r : Fin 2048) :
    tokRow ⟨t.val - 1, (Nat.lt_of_le_of_lt (Nat.sub_le _ _) t.isLt)⟩ r = tokRow t r :=
  Fin.ext (by show 2048 * ((t.val - 1) / 32) + r.val = 2048 * (t.val / 32) + r.val; omega)

/-- So the preprocessed token block is the same at both points. -/
theorem xpBlk_prev (h0 : ¬t.val % 32 = 0) :
    xpBlk X pb mc s ⟨t.val - 1, (Nat.lt_of_le_of_lt (Nat.sub_le _ _) t.isLt)⟩ = xpBlk X pb mc s t := by
  funext y
  exact congrArg (fun r => xpK X pb mc s r (y 1)) (tokRow_prev t h0 (y 0))

/-- What the point before left in the reconstruction block is the accumulator after `t % 32` runs. -/
theorem recBlk_prev (h0 : ¬t.val % 32 = 0) :
    recBlk X E D pb lb mc s ⟨t.val - 1, (Nat.lt_of_le_of_lt (Nat.sub_le _ _) t.isLt)⟩
      = accBlk X E D pb lb mc s t (t.val % 32) (Nat.le_of_lt (Nat.mod_lt _ (by decide))) := by
  have hlt := Nat.mod_lt t.val (by decide : 0 < 32)
  unfold recBlk
  rw [if_neg (by show ¬(t.val - 1) % 32 = 31; omega)]
  funext y
  exact accK_congr X E D pb lb mc s (y 1) (tokRow_prev t h0 (y 0)) (by show (t.val - 1) % 32 + 1 = t.val % 32; omega) _ _

end Blocks

variable (m : (ℓ : Loc nD τ sig) → Buf (Elt Ideal) ℓ) (c : Dev nD)

/-! ## The arguments' blocks at a point -/

/-- Window 0's block at point `t` is the token rows of `t`. -/
theorem blkX (t : Fin cfg0.N) (r : Fin 2048) (k : Fin 1024) :
    (iblk m c 0 t : Vec Ideal S2048x1024 .f32) (ix2 r k) = (m ((c : Thread nD τ).loc main_arg0)) (ix2 (tokRow t r) k) :=
  (iblk0 m c t r k).trans (congrFun (V_main_arg0 m c) _)

/-- Window 1's block at point `t` is the encoder's columns of `t`'s run. -/
theorem blkE (t : Fin cfg0.N) (k : Fin 1024) (q : Fin 512) :
    (iblk m c 1 t : Vec Ideal S1024x512 .f32) (ix2 k q) = (m ((c : Thread nD τ).loc main_arg1)) (ix2 k (latPos t q)) :=
  (iblk1 m c t k q).trans (congrFun (V_main_arg1 m c) _)

/-- Window 2's block at point `t` is the decoder's rows of `t`'s run. -/
theorem blkD (t : Fin cfg0.N) (q : Fin 512) (d : Fin 1024) :
    (iblk m c 2 t : Vec Ideal S512x1024 .f32) (ix2 q d) = (m ((c : Thread nD τ).loc main_arg2)) (ix2 (latPos t q) d) :=
  (iblk2 m c t q d).trans (congrFun (V_main_arg2 m c) _)

/-- Window 3's block at point `t` is the latent bias at `t`'s run. -/
theorem blkL (t : Fin cfg0.N) (q : Fin 512) :
    (iblk m c 3 t : Vec Ideal S1x512 .f32) (ix2 (0 : Fin 1) q) = (m ((c : Thread nD τ).loc main_arg4)) (ix1 (latPos t q)) :=
  (iblk3 m c t q).trans (HostRows.V_lb m c _)

/-- Window 4's block is the scale row. -/
theorem blkPS (t : Fin cfg0.N) (k : Fin 1024) :
    (iblk m c 4 t : Vec Ideal S1x1024 .f32) (ix2 (0 : Fin 1) k) = (m ((c : Thread nD τ).loc main_arg6)) ix0 :=
  (iblk4 m c t k).trans (HostRows.V_pscale m c k)

/-- The invariant after point `t`: the latent block, the reconstruction block and the carried buffer. -/
def Holds (t : Fin cfg0.N) : Prop :=
  (outsAt0 m c t.val t.isLt).1 = zBlk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t
    ∧ (outsAt0 m c t.val t.isLt).2.1 = recBlk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t
    ∧ (outsAt0 m c t.val t.isLt).2.2 = xpBlk (m ((c : Thread nD τ).loc main_arg0)) (m ((c : Thread nD τ).loc main_arg3)) (m ((c : Thread nD τ).loc main_arg5)) (m ((c : Thread nD τ).loc main_arg6)) t

/-- A run's first point establishes the invariant from nothing. -/
theorem step_A (t : Fin cfg0.N) (h0 : t.val % 32 = 0) (h1 : ¬t.val % 32 = 31) : Holds m c t := by
  have hxp : k0_pay1 (F := Ideal) (iblk m c 0 t) (iblk m c 4 t) (iblk m c 5 t) = xpBlk (m ((c : Thread nD τ).loc main_arg0)) (m ((c : Thread nD τ).loc main_arg3)) (m ((c : Thread nD τ).loc main_arg5)) (m ((c : Thread nD τ).loc main_arg6)) t :=
    pay1_blk (m ((c : Thread nD τ).loc main_arg0)) (m ((c : Thread nD τ).loc main_arg3)) (m ((c : Thread nD τ).loc main_arg5)) (m ((c : Thread nD τ).loc main_arg6)) t _ _ _ (blkX m c t) (blkPS m c t) (fun k => (iblk5 m c t k).trans (HostRows.V_pbias m c k))
  have hz : k0_pay3 (F := Ideal) (k0_pay1 (F := Ideal) (iblk m c 0 t) (iblk m c 4 t) (iblk m c 5 t)) (iblk m c 1 t) (iblk m c 3 t)
      = zBlk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t :=
    pay3_blk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t _ _ _ hxp (blkE m c t) (blkL m c t)
  unfold Holds
  rw [outsAt0_A m c t h0 h1]
  dsimp only
  refine ⟨?_, ?_, ?_⟩
  · exact (Piece.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).trans hz
  · refine (Piece.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).trans ?_
    unfold recBlk
    rw [if_neg h1]
    refine pay4_blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t _ _ _ _ _ hz ?_ (blkD m c t)
    funext y
    rw [Pay.pay2_apply]
    exact (accK_congr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 1) rfl h0 _ (Nat.zero_le 32)).symm
  · exact (Piece.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).trans hxp

/-- A middle point keeps the invariant. -/
theorem step_B (t : Fin cfg0.N) (h0 : ¬t.val % 32 = 0) (h1 : ¬t.val % 32 = 31)
    (ih : Holds m c ⟨t.val - 1, (Nat.lt_of_le_of_lt (Nat.sub_le _ _) t.isLt)⟩) : Holds m c t := by
  obtain ⟨-, ihrec, ihxp⟩ := ih
  have hxp : (outsAt0 m c (t.val - 1) (Nat.lt_of_le_of_lt (Nat.sub_le _ _) t.isLt)).2.2 = xpBlk (m ((c : Thread nD τ).loc main_arg0)) (m ((c : Thread nD τ).loc main_arg3)) (m ((c : Thread nD τ).loc main_arg5)) (m ((c : Thread nD τ).loc main_arg6)) t :=
    ihxp.trans (xpBlk_prev (m ((c : Thread nD τ).loc main_arg0)) (m ((c : Thread nD τ).loc main_arg3)) (m ((c : Thread nD τ).loc main_arg5)) (m ((c : Thread nD τ).loc main_arg6)) t h0)
  have hacc : (outsAt0 m c (t.val - 1) (Nat.lt_of_le_of_lt (Nat.sub_le _ _) t.isLt)).2.1
      = accBlk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t (t.val % 32) (Nat.le_of_lt (Nat.mod_lt _ (by decide))) :=
    ihrec.trans (recBlk_prev (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t h0)
  have hz : k0_pay3 (F := Ideal) (outsAt0 m c (t.val - 1) (Nat.lt_of_le_of_lt (Nat.sub_le _ _) t.isLt)).2.2 (iblk m c 1 t) (iblk m c 3 t) = zBlk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t :=
    pay3_blk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t _ _ _ hxp (blkE m c t) (blkL m c t)
  unfold Holds
  rw [outsAt0_B m c t h0 h1]
  dsimp only
  refine ⟨?_, ?_, ?_⟩
  · exact (Piece.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans hz
  · refine (Piece.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans ?_
    unfold recBlk
    rw [if_neg h1]
    exact pay4_blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t _ _ _ _ _ hz hacc (blkD m c t)
  · unfold sout0_B_0
    exact hxp

/-- A run's last point finishes the reconstruction block. -/
theorem step_C (t : Fin cfg0.N) (h0 : ¬t.val % 32 = 0) (h1 : t.val % 32 = 31)
    (ih : Holds m c ⟨t.val - 1, (Nat.lt_of_le_of_lt (Nat.sub_le _ _) t.isLt)⟩) : Holds m c t := by
  obtain ⟨-, ihrec, ihxp⟩ := ih
  have hxp : (outsAt0 m c (t.val - 1) (Nat.lt_of_le_of_lt (Nat.sub_le _ _) t.isLt)).2.2 = xpBlk (m ((c : Thread nD τ).loc main_arg0)) (m ((c : Thread nD τ).loc main_arg3)) (m ((c : Thread nD τ).loc main_arg5)) (m ((c : Thread nD τ).loc main_arg6)) t :=
    ihxp.trans (xpBlk_prev (m ((c : Thread nD τ).loc main_arg0)) (m ((c : Thread nD τ).loc main_arg3)) (m ((c : Thread nD τ).loc main_arg5)) (m ((c : Thread nD τ).loc main_arg6)) t h0)
  have hacc : (outsAt0 m c (t.val - 1) (Nat.lt_of_le_of_lt (Nat.sub_le _ _) t.isLt)).2.1
      = accBlk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t (t.val % 32) (Nat.le_of_lt (Nat.mod_lt _ (by decide))) :=
    ihrec.trans (recBlk_prev (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t h0)
  have hz : k0_pay3 (F := Ideal) (outsAt0 m c (t.val - 1) (Nat.lt_of_le_of_lt (Nat.sub_le _ _) t.isLt)).2.2 (iblk m c 1 t) (iblk m c 3 t) = zBlk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t :=
    pay3_blk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t _ _ _ hxp (blkE m c t) (blkL m c t)
  unfold Holds
  rw [outsAt0_C m c t h0 h1]
  dsimp only
  refine ⟨?_, ?_, ?_⟩
  · exact (Piece.out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans hz
  · refine (Piece.out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans ?_
    unfold recBlk
    rw [if_pos h1]
    refine pay5_blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t _ _ _ ?_ (fun d => (iblk6 m c t d).trans (HostRows.V_qscale m c d))
      (fun d => (iblk7 m c t d).trans (HostRows.V_qbias m c d))
    refine (pay4_blk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t _ _ _ _ _ hz hacc (blkD m c t)).trans ?_
    funext y
    exact accK_congr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 1) rfl (by omega) _ _
  · unfold sout0_C_0
    exact hxp

/-- The invariant holds after every point. -/
theorem holds_aux : ∀ (n : ℕ) (h : n < cfg0.N), Holds m c ⟨n, h⟩ := by
  intro n
  induction n using Nat.strong_induction_on with
  | _ n ih =>
    intro h
    by_cases h0 : n % 32 = 0
    · exact step_A m c ⟨n, h⟩ h0 (by show ¬n % 32 = 31; omega)
    · by_cases h1 : n % 32 = 31
      · exact step_C m c ⟨n, h⟩ h0 h1 (ih (n - 1) (by omega) _)
      · exact step_B m c ⟨n, h⟩ h0 h1 (ih (n - 1) (by omega) _)

/-- The invariant holds after every point. -/
theorem holds (t : Fin cfg0.N) : Holds m c t := holds_aux m c t.val t.isLt

end Cert.KernelIdeal.Inv

end
-- ==== Proof.KFinal.lean ====
import proofs.«107824_g7980049236240_cont_sun_m_806_42_alg».proof.Proof.KInv
import proofs.«107824_g7980049236240_cont_sun_m_806_42_alg».proof.Proof.Gen.KernelIdeal.Value

set_option maxRecDepth 16384

noncomputable section

open scoped BigOperators

/-!
  The kernel's two result arrays after the run.

  The latent array is written back block by block, one block per grid point, and the 64 blocks tile it; the block of
  point `t` holds the activations of `t`'s rows at `t`'s run, so the array ends holding the kernel's activation
  function. The reconstruction array is written back only at the last point of each run of 32; there the block holds
  the finished reconstruction of the run's rows, and the two blocks tile the array.
-/

namespace Cert.KernelIdeal.Final

open Cert.KernelIdeal Cert.KernelIdeal.Gen Idealize.ShloMosaic Idealize.ShloMosaic.TcCoe Idealize.ShloMosaic.ValueIdx Idealize.SL.Sem
open Cert.SaeSpec Cert.KernelIdeal.Blocks Cert.KernelIdeal.Inv
open Idealize.ShloMosaic.Pipeline (Dat)

variable (m : (ℓ : Loc nD τ sig) → Buf (Elt Ideal) ℓ) (ρ : Dev nD → PrngReg) (c : Dev nD)

/-- The kernel's latent activations as one array. -/
def zArr : S4096x16384.Idx → EReal :=
  fun i => zK (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (i 0) (i 1)

/-- The kernel's reconstruction as one array. -/
def yArr : S4096x1024.Idx → EReal :=
  fun i => yK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1)

/-- What point `t` writes back to the latent array is its block of the activation array. -/
theorem flushed8_eq (t : Fin cfg0.N) (hf : (cfg0.win 8).flush t = true) :
    (dats m 0 c).flushed 8 t = ((cfg0.win 8).blk t).view.read (Elt Ideal) (zArr m c) := by
  obtain ⟨hz, -, -⟩ := holds m c t
  rw [Value.flushed8, hz]
  funext y
  show zBlk (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) t y = (((cfg0.win 8).blk t).view.read (Elt Ideal) (zArr m c) : Vec Ideal S2048x512 .f32) y
  obtain ⟨r, q, rfl⟩ : ∃ (r : Fin 2048) (q : Fin 512), y = ix2 r q := ⟨y 0, y 1, eq_ix2 y⟩
  exact (blk8_read (F := Ideal) t (zArr m c) r q).symm

/-- What a run's last point writes back to the reconstruction array is its block of the reconstruction. -/
theorem flushed9_eq (t : Fin cfg0.N) (hf : (cfg0.win 9).flush t = true) :
    (dats m 0 c).flushed 9 t = ((cfg0.win 9).blk t).view.read (Elt Ideal) (yArr m c) := by
  have h31 : t.val % 32 = 31 := (flush0_9 t).mp hf
  obtain ⟨-, hrec, -⟩ := holds m c t
  rw [Value.flushed9, hrec]
  funext y
  show recBlk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) t y = (((cfg0.win 9).blk t).view.read (Elt Ideal) (yArr m c) : Vec Ideal S2048x1024 .f32) y
  obtain ⟨r, d, rfl⟩ : ∃ (r : Fin 2048) (d : Fin 1024), y = ix2 r d := ⟨y 0, y 1, eq_ix2 y⟩
  unfold recBlk
  rw [if_pos h31]
  exact (blk9_read (F := Ideal) t (yArr m c) r d).symm

/-- The latent array after the run. -/
theorem final8 : (dats m 0 c).arrAt 8 cfg0.N = zArr m c :=
  (dats m 0 c).arrAt_eq_of_cover 8 (zArr m c) (flushed8_eq m c) cover8

/-- The reconstruction array after the run. -/
theorem final9 : (dats m 0 c).arrAt 9 cfg0.N = yArr m c :=
  (dats m 0 c).arrAt_eq_of_cover 9 (yArr m c) (flushed9_eq m c) cover9

/-- The kernel's run: both result arrays at the kernel's functions of the arguments, the arguments unchanged. -/
theorem run : θ_run defs (onTc (τ := τ) (main (F := Ideal))) ⟨m, fun _ => 0, ρ⟩ fun r => ∀ c : Dev nD,
      r.2.mem ((c : Thread nD τ).loc main_v13_0) = zArr m c
      ∧ r.2.mem ((c : Thread nD τ).loc main_v13_1) = yArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2.1.trans (final9 m c), (h c).2.2⟩)
    (Value.run_blocks m ρ)

end Cert.KernelIdeal.Final

end
-- ==== Proof.RefSide.lean ====
/-
  The reference program is the specification's function.

  The reference program's two results are composed terms of the seven argument arrays. Read one entry at a time
  (a broadcast reads its operand at the broadcast index, an elementwise stage applies its operation to the entries,
  a contraction is the sum over the contracted position of the products), the latent result at (r, n) is
  max (Σ_k ((x(r,k) - mc k) * s - pb k) E(k,n) + lb n) 0 and the reconstruction at (r, d) is
  (Σ_n z(r,n) D(n,d) + pb d) / s + mc d: the functions zR and yR.
-/
import proofs.«107824_g7980049236240_cont_sun_m_806_42_alg».proof.Proof.SaeSpec
import proofs.«107824_g7980049236240_cont_sun_m_806_42_alg».proof.Proof.Gen.ReferenceIdeal.Read

noncomputable section

open scoped BigOperators

namespace Cert.RefSide

open Cert.ReferenceIdeal Cert.ReferenceIdeal.Gen Idealize.ShloMosaic Idealize.ShloMosaic.ValueIdx Idealize.ShloMosaic.StableHlo
open Cert.SaeSpec

/-! ## The composed read indices at an index given by its coordinates -/

/-- The encoder contraction at (r, n) reads the preprocessed token at (r, k). -/
theorem lidx8 (r : Fin 4096) (n : Fin 16384) (k : Fin 1024) : Read.lidx_main_v8 (ix2 r n) k = ix2 r k :=
  funext fun a => by match a with | ⟨0, _⟩ => rfl | ⟨1, _⟩ => rfl

/-- The encoder contraction at (r, n) reads the encoder at (k, n). -/
theorem ridx8 (r : Fin 4096) (n : Fin 16384) (k : Fin 1024) : Read.ridx_main_v8 (ix2 r n) k = ix2 k n :=
  funext fun a => by match a with | ⟨0, _⟩ => rfl | ⟨1, _⟩ => rfl

/-- The decoder contraction at (r, d) reads the latent result in row r. -/
theorem lidx14_0 (r : Fin 4096) (d : Fin 1024) (n : Fin 16384) : Read.lidx_main_v14 (ix2 r d) n 0 = r := rfl

/-- The decoder contraction at (r, d) reads the latent result at latent position n. -/
theorem lidx14_1 (r : Fin 4096) (d : Fin 1024) (n : Fin 16384) : Read.lidx_main_v14 (ix2 r d) n 1 = n := rfl

/-- The decoder contraction at (r, d) reads the decoder at (n, d). -/
theorem ridx14 (r : Fin 4096) (d : Fin 1024) (n : Fin 16384) : Read.ridx_main_v14 (ix2 r d) n = ix2 n d :=
  funext fun a => by match a with | ⟨0, _⟩ => rfl | ⟨1, _⟩ => rfl

/-- The mean row broadcast over the tokens reads the mean at the column k. -/
theorem idx01 (r : Fin 4096) (k : Fin 1024) : Read.idx_main_v0 (Read.idx_main_v1 (ix2 r k)) = ix1 k :=
  funext fun a => by match a with | ⟨0, _⟩ => rfl

/-- The pre-bias row broadcast over the tokens reads the pre-bias at the column k. -/
theorem idx56 (r : Fin 4096) (k : Fin 1024) : Read.idx_main_v5 (Read.idx_main_v6 (ix2 r k)) = ix1 k :=
  funext fun a => by match a with | ⟨0, _⟩ => rfl

/-- The latent-bias row broadcast over the tokens reads the latent bias at the latent position n. -/
theorem idx910 (r : Fin 4096) (n : Fin 16384) : Read.idx_main_v9 (Read.idx_main_v10 (ix2 r n)) = ix1 n :=
  funext fun a => by match a with | ⟨0, _⟩ => rfl

/-- The pre-bias row broadcast over the reconstruction reads the pre-bias at the column d. -/
theorem idx1516 (r : Fin 4096) (d : Fin 1024) : Read.idx_main_v15 (Read.idx_main_v16 (ix2 r d)) = ix1 d :=
  funext fun a => by match a with | ⟨0, _⟩ => rfl

/-- The mean row broadcast over the reconstruction reads the mean at the column d. -/
theorem idx2021 (r : Fin 4096) (d : Fin 1024) : Read.idx_main_v20 (Read.idx_main_v21 (ix2 r d)) = ix1 d :=
  funext fun a => by match a with | ⟨0, _⟩ => rfl

/-- The scale broadcast over the tokens reads the scalar's one entry. -/
theorem idx3 (r : Fin 4096) (k : Fin 1024) : Read.idx_main_v3 (ix2 r k) = ix0 := rfl

/-- The scale broadcast over the reconstruction reads the scalar's one entry. -/
theorem idx18 (r : Fin 4096) (d : Fin 1024) : Read.idx_main_v18 (ix2 r d) = ix0 := rfl

/-- The reference's latent result, entry by entry: at (r, n) it is max (Σ_k xp(r,k) E(k,n) + lb n) 0 with
    xp(r,k) = (x(r,k) - mc k) * s - pb k. -/
theorem ref_z (x0 : (⟨S4096x1024, .f32⟩ : BufTy).Contents (Elt Ideal)) (x1 : (⟨S1024x16384, .f32⟩ : BufTy).Contents (Elt Ideal))
    (x3 : (⟨S1024, .f32⟩ : BufTy).Contents (Elt Ideal)) (x4 : (⟨S16384, .f32⟩ : BufTy).Contents (Elt Ideal))
    (x5 : (⟨S1024, .f32⟩ : BufTy).Contents (Elt Ideal)) (x6 : (⟨S_, .f32⟩ : BufTy).Contents (Elt Ideal)) :
    Cert.ReferenceIdeal.Read.val_main_v13 (F := Ideal) x0 x1 x3 x4 x5 x6
      = fun i => Cert.SaeSpec.zR x0 x1 x3 x4 x5 x6 (i 0) (i 1) := by
  funext i
  obtain ⟨r, n, rfl⟩ : ∃ r n, i = ix2 r n := ⟨i 0, i 1, eq_ix2 i⟩
  show _ = zR x0 x1 x3 x4 x5 x6 r n
  simp only [Read.val_main_v13_apply, Read.val_main_v11_apply, Read.val_main_v12_apply, Read.val_main_cst_apply,
    Read.val_main_v10_apply, Read.val_main_v9_apply, Read.val_main_v8_apply, Read.val_main_v7_apply,
    Read.val_main_v6_apply, Read.val_main_v5_apply, Read.val_main_v4_apply, Read.val_main_v3_apply,
    Read.val_main_v2_apply, Read.val_main_v1_apply, Read.val_main_v0_apply]
  simp only [lidx8, ridx8, idx01, idx56, idx910, idx3, Ideal.addf_def, Ideal.subf_def, Ideal.mulf_def,
    Ideal.maximumf_def, Ideal.ofBits_def, Ideal.ofBits_zero_f32, zR, xpR]

/-- The reference's reconstruction, entry by entry: at (r, d) it is (Σ_n z(r,n) D(n,d) + pb d) / s + mc d, z the
    latent result. -/
theorem ref_y (x0 : (⟨S4096x1024, .f32⟩ : BufTy).Contents (Elt Ideal)) (x1 : (⟨S1024x16384, .f32⟩ : BufTy).Contents (Elt Ideal))
    (x2 : (⟨S16384x1024, .f32⟩ : BufTy).Contents (Elt Ideal))
    (x3 : (⟨S1024, .f32⟩ : BufTy).Contents (Elt Ideal)) (x4 : (⟨S16384, .f32⟩ : BufTy).Contents (Elt Ideal))
    (x5 : (⟨S1024, .f32⟩ : BufTy).Contents (Elt Ideal)) (x6 : (⟨S_, .f32⟩ : BufTy).Contents (Elt Ideal)) :
    Cert.ReferenceIdeal.Read.val_main_v22 (F := Ideal) x0 x1 x2 x3 x4 x5 x6
      = fun i => Cert.SaeSpec.yR x0 x1 x2 x3 x4 x5 x6 (i 0) (i 1) := by
  funext i
  obtain ⟨r, d, rfl⟩ : ∃ r d, i = ix2 r d := ⟨i 0, i 1, eq_ix2 i⟩
  show _ = yR x0 x1 x2 x3 x4 x5 x6 r d
  simp only [Read.val_main_v22_apply, Read.val_main_v21_apply, Read.val_main_v20_apply, Read.val_main_v19_apply,
    Read.val_main_v18_apply, Read.val_main_v17_apply, Read.val_main_v16_apply, Read.val_main_v15_apply,
    Read.val_main_v14_apply, ref_z]
  simp only [lidx14_0, lidx14_1, ridx14, idx1516, idx2021, idx18, Ideal.addf_def, Ideal.hostDivf_def, yR]

end Cert.RefSide

end
-- ==== Proof.PreFacts.lean ====
/-
  What the precondition says of the arguments.

  The precondition is the conjunction of seven statements "every entry of the array has absolute value below +∞" and
  the statement "the scale is not zero". On the extended reals an entry whose absolute value max a (-a) is below +∞ is
  neither infinity, so it is a real number; hence all seven arrays are real-valued, and the scale is a real number
  other than zero.
-/
import proofs.«107824_g7980049236240_cont_sun_m_806_42_alg».proof.Proof.SaeSpec
import proofs.«107824_g7980049236240_cont_sun_m_806_42_alg».proof.Pre_finite_inputs
import Idealize.ShloMosaic.Lib.ReduceAll
import Idealize.ShloMosaic.PureOps.Ideal.Laws

noncomputable section

namespace Cert.PreFacts

open Idealize.ShloMosaic Idealize.ShloMosaic.ValueIdx
open Cert.SaeSpec

/-- The rank-0 shape has one index. -/
instance : Subsingleton Cert.Pre_finite_inputs.S_.Idx := ⟨fun a b => funext fun d => d.elim0⟩

/-- The f32 pattern 0x7F800000 is +∞. -/
theorem ofBits_inf_f32 : Ideal.ofBits .f32 0x7F800000#32 = ⊤ := by simp [Ideal.ofBits, Ideal.ieee]

/-- An extended real whose absolute value max a (-a) compares below +∞ is a real number. -/
theorem real_of_abs_lt_inf (a : EReal)
    (h : Ideal.cmp .olt (max a (-a)) (Ideal.ofBits .f32 0x7F800000#32) = 1#1) : ∃ r : ℝ, a = (r : EReal) := by
  rw [ofBits_inf_f32] at h
  induction a using EReal.rec with
  | bot => simp [Ideal.cmp] at h
  | coe r => exact ⟨r, rfl⟩
  | top => simp [Ideal.cmp] at h

/-- One conjunct of the precondition: if the conjunction over all entries of "|x| < +∞" holds, x is real-valued. -/
theorem isReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf x) (broadcastInDim s ![] hb (constant Cert.Pre_finite_inputs.S_ .f32 0x7F800000#32)))
      init hr hu j = 1#1) : IsReal x := by
  intro i
  have hi := Host.reduce_andi_all _ init hr hu j e i
  refine real_of_abs_lt_inf (x i) ?_
  rw [← hi]
  rfl

/-- The scalar conjunct: a rank-0 array whose entry has absolute value below +∞ is real-valued. -/
theorem isReal_of_all_scalar {axes : List (Fin Cert.Pre_finite_inputs.S_.rank)} (x : FVec Ideal Cert.Pre_finite_inputs.S_ .f32)
    (hr : Cert.Pre_finite_inputs.S_.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf x) (constant Cert.Pre_finite_inputs.S_ .f32 0x7F800000#32))
      init hr hu j = 1#1) : IsReal x := by
  intro i
  have hi := Host.reduce_andi_all _ init hr hu j e i
  refine real_of_abs_lt_inf (x i) ?_
  rw [← hi]
  rfl

variable [Cert.Pre_finite_inputs.Facts]

/-- The precondition gives: all seven argument arrays are real-valued and the scale is not zero. -/
theorem facts_of_pre (x0 : FVec Ideal Cert.Pre_finite_inputs.S4096x1024 .f32) (x1 : FVec Ideal Cert.Pre_finite_inputs.S1024x16384 .f32)
    (x2 : FVec Ideal Cert.Pre_finite_inputs.S16384x1024 .f32) (x3 : FVec Ideal Cert.Pre_finite_inputs.S1024 .f32)
    (x4 : FVec Ideal Cert.Pre_finite_inputs.S16384 .f32) (x5 : FVec Ideal Cert.Pre_finite_inputs.S1024 .f32)
    (x6 : FVec Ideal Cert.Pre_finite_inputs.S_ .f32)
    (h : Cert.Pre_finite_inputs.fn (F := Ideal) x0 x1 x2 x3 x4 x5 x6 = fun _ => 1#1) :
    IsReal x0 ∧ IsReal x1 ∧ IsReal x2 ∧ IsReal x3 ∧ IsReal x4 ∧ IsReal x5 ∧ IsReal x6 ∧ x6 ix0 ≠ 0 := by
  have h0 := congrFun h ix0
  dsimp only [Cert.Pre_finite_inputs.fn, Cert.Pre_finite_inputs.fn_part1, Cert.Pre_finite_inputs.fn_part2] at h0
  obtain ⟨h0, hne⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨isReal_of_all x0 _ _ _ _ _ h0, isReal_of_all x1 _ _ _ _ _ h1, isReal_of_all x2 _ _ _ _ _ h2,
    isReal_of_all x3 _ _ _ _ _ h3, isReal_of_all x4 _ _ _ _ _ h4, isReal_of_all x5 _ _ _ _ _ h5,
    isReal_of_all_scalar x6 _ _ _ _ h6, ?_⟩
  intro hz
  have : Ideal.cmp .une (x6 ix0) (Ideal.ofBits .f32 0x00000000#32) = 1#1 := hne
  rw [Ideal.ofBits_zero_f32, hz] at this
  simp [Ideal.cmp] at this

end Cert.PreFacts

end
-- ==== Proof.LibBlockSum.lean ====
/-
  A sum over n * b positions taken as n consecutive runs of b positions (program-independent; imports only Mathlib):
  what joins a matrix product whose contracted axis a kernel walks slice by slice to the one product over the whole
  axis. Stated for any commutative additive monoid, so it holds for the extended reals with no finiteness assumption.
  The case used here: the 4096 positions of the contracted axis as eight consecutive runs of 512.

  Position k of the axis is position q = k mod 512 of run s = k / 512, that is k = 512 s + q; summing run by run, and
  inside each run position by position, visits every position once. Only the commutative-monoid laws of addition are
  used, so the statement holds in the extended reals with no finiteness assumption.
-/
import Mathlib

namespace Cert.BlockSum

/-- A sum over `n * b` positions is the sum over `n` runs of the sums over the `b` positions of each run. -/
theorem sum_runs {β : Type*} [AddCommMonoid β] (n b : ℕ) (f : Fin (n * b) → β) :
    ∑ k : Fin (n * b), f k
      = ∑ s : Fin n, ∑ q : Fin b, f ⟨b * s.val + q.val, by
          have hs := s.isLt; have hq := q.isLt
          calc b * s.val + q.val < b * s.val + b := by omega
            _ = b * (s.val + 1) := by ring
            _ ≤ b * n := Nat.mul_le_mul_left b hs
            _ = n * b := Nat.mul_comm b n⟩ := by
  rw [← Equiv.sum_comp finProdFinEquiv, Fintype.sum_prod_type]
  refine Finset.sum_congr rfl fun s _ => Finset.sum_congr rfl fun q _ => ?_
  refine congrArg f (Fin.ext ?_)
  show q.val + b * s.val = b * s.val + q.val
  exact Nat.add_comm _ _

/-- The contracted axis of 4096 positions as eight runs of 512. -/
theorem sum_eight_runs {β : Type*} [AddCommMonoid β] (f : Fin 4096 → β) :
    ∑ k : Fin 4096, f k = ∑ s : Fin 8, ∑ q : Fin 512, f ⟨512 * s.val + q.val, by have := s.isLt; have := q.isLt; omega⟩ :=
  sum_runs 8 512 f

end Cert.BlockSum
-- ==== Proof.SaeLaw.lean ====
/-
  The kernel's two outputs equal the reference's, entry by entry, when every argument entry is a real number and the
  scale is not zero.

  Four facts carry the statement.
  * The preprocessed token: for reals, x * s + (-(mc * s + pb)) = (x - mc) * s - pb. Both sides are formed in the
    extended reals from coerced reals, so each side is the coercion of the real expression, and the two real
    expressions are equal by the ring laws. Hence the two latent activations agree (the same maximum of the same sum).
  * The accumulator: starting at zero and adding the partial product of each of the 32 runs gives the sum of the 32
    partial products, and the 32 runs of 512 latent positions visit each of the 16384 positions once, so the full
    accumulator is the one decoder product over the whole latent axis. This uses only the commutative-monoid laws.
  * Real values are closed under sum, product, negation, maximum and finite sums, so every latent activation and the
    decoder product A are real numbers.
  * The postprocessing: for reals with s ≠ 0, A * (1 / s) + (pb / s + mc) = (A + pb) / s + mc. Division by a nonzero
    real is the product with the reciprocal; after that both sides are coercions of real expressions equal by the
    ring laws. Distributivity is used only inside the reals.
-/
import Mathlib
import proofs.«107824_g7980049236240_cont_sun_m_806_42_alg».proof.Proof.SaeSpec
import proofs.«107824_g7980049236240_cont_sun_m_806_42_alg».proof.Proof.LibBlockSum

noncomputable section

open scoped BigOperators

namespace Cert.SaeLaw

open Idealize.ShloMosaic Idealize.ShloMosaic.ValueIdx Cert.SaeSpec

/-! ## Real values inside the extended reals -/

/-- An extended real that is a real number (neither infinity). -/
def IsRealVal (v : EReal) : Prop := ∃ a : ℝ, v = (a : EReal)

/-- Every entry of an array of reals is a real value. -/
theorem isRealVal_entry {ι : Type} {f : ι → EReal} (h : IsReal f) (i : ι) : IsRealVal (f i) := h i

/-- Zero is a real value. -/
theorem isRealVal_zero : IsRealVal 0 := ⟨0, EReal.coe_zero.symm⟩

/-- The sum of two real values is a real value. -/
theorem isRealVal_add {u v : EReal} (hu : IsRealVal u) (hv : IsRealVal v) : IsRealVal (u + v) := by
  obtain ⟨a, rfl⟩ := hu
  obtain ⟨b, rfl⟩ := hv
  exact ⟨a + b, (EReal.coe_add a b).symm⟩

/-- The product of two real values is a real value. -/
theorem isRealVal_mul {u v : EReal} (hu : IsRealVal u) (hv : IsRealVal v) : IsRealVal (u * v) := by
  obtain ⟨a, rfl⟩ := hu
  obtain ⟨b, rfl⟩ := hv
  exact ⟨a * b, (EReal.coe_mul a b).symm⟩

/-- The negation of a real value is a real value. -/
theorem isRealVal_neg {u : EReal} (hu : IsRealVal u) : IsRealVal (-u) := by
  obtain ⟨a, rfl⟩ := hu
  exact ⟨-a, (EReal.coe_neg a).symm⟩

/-- The maximum of two real values is a real value. -/
theorem isRealVal_max {u v : EReal} (hu : IsRealVal u) (hv : IsRealVal v) : IsRealVal (max u v) := by
  obtain ⟨a, rfl⟩ := hu
  obtain ⟨b, rfl⟩ := hv
  exact ⟨max a b, (EReal.coe_strictMono.monotone.map_max).symm⟩

/-- A finite sum of real values is a real value. -/
theorem isRealVal_sum {ι : Type} (t : Finset ι) (f : ι → EReal) (h : ∀ i ∈ t, IsRealVal (f i)) :
    IsRealVal (∑ i ∈ t, f i) := by
  classical
  induction t using Finset.induction_on with
  | empty => simpa using isRealVal_zero
  | insert a t ha ih =>
    rw [Finset.sum_insert ha]
    exact isRealVal_add (h a (Finset.mem_insert_self a t)) (ih fun i hi => h i (Finset.mem_insert_of_mem hi))

variable (X : ST.Idx → EReal) (E : SE.Idx → EReal) (D : SD.Idx → EReal) (pb : SV.Idx → EReal) (lb : SL.Idx → EReal)
  (mc : SV.Idx → EReal) (s : S0.Idx → EReal)

/-! ## The preprocessed token and the latent activations -/

/-- For real entries the kernel's preprocessed token `x * s + (-(mc * s + pb))` is the reference's
    `(x - mc) * s - pb`: both are coercions of real expressions equal by the ring laws. -/
theorem xpK_eq_xpR (hX : IsReal X) (hpb : IsReal pb) (hmc : IsReal mc) (hs : IsReal s) (r : Fin 4096)
    (k : Fin 1024) : xpK X pb mc s r k = xpR X pb mc s r k := by
  obtain ⟨x, hx⟩ := hX (ix2 r k)
  obtain ⟨p, hp⟩ := hpb (ix1 k)
  obtain ⟨m, hm⟩ := hmc (ix1 k)
  obtain ⟨t, ht⟩ := hs ix0
  unfold xpK xpR
  rw [hx, hp, hm, ht]
  rw [← EReal.coe_mul, ← EReal.coe_mul, ← EReal.coe_add, ← EReal.coe_neg, ← EReal.coe_add, ← EReal.coe_sub,
    ← EReal.coe_mul, ← EReal.coe_sub]
  congr 1
  ring

/-- The kernel's latent activation is the reference's: the same maximum of the same sum, term by term. -/
theorem zK_eq_zR (hX : IsReal X) (hpb : IsReal pb) (hmc : IsReal mc) (hs : IsReal s) (r : Fin 4096)
    (n : Fin 16384) : zK X E pb lb mc s r n = zR X E pb lb mc s r n := by
  unfold zK zR
  simp only [xpK_eq_xpR X pb mc s hX hpb hmc hs]

/-- With real arguments the kernel's preprocessed token entry is a real value. -/
theorem isRealVal_xpK (hX : IsReal X) (hpb : IsReal pb) (hmc : IsReal mc) (hs : IsReal s) (r : Fin 4096)
    (k : Fin 1024) : IsRealVal (xpK X pb mc s r k) :=
  isRealVal_add (isRealVal_mul (hX _) (hs _)) (isRealVal_neg (isRealVal_add (isRealVal_mul (hmc _) (hs _)) (hpb _)))

/-- With real arguments the kernel's latent activation is a real value. -/
theorem isRealVal_zK (hX : IsReal X) (hE : IsReal E) (hpb : IsReal pb) (hlb : IsReal lb) (hmc : IsReal mc)
    (hs : IsReal s) (r : Fin 4096) (n : Fin 16384) : IsRealVal (zK X E pb lb mc s r n) :=
  isRealVal_max
    (isRealVal_add
      (isRealVal_sum _ _ fun k _ => isRealVal_mul (isRealVal_xpK X pb mc s hX hpb hmc hs r k) (hE _))
      (hlb _))
    isRealVal_zero

/-! ## The accumulator -/

/-- The accumulator after `j` runs is the sum of the first `j` partial products. -/
theorem accK_eq_sum_parts (r : Fin 4096) (d : Fin 1024) : ∀ (j : ℕ) (h : j ≤ 32),
    accK X E D pb lb mc s r d j h
      = ∑ i : Fin j, partK X E D pb lb mc s r d ⟨i.val, lt_of_lt_of_le i.isLt h⟩
  | 0, _ => by simp [accK]
  | j + 1, h => by
    rw [accK, accK_eq_sum_parts r d j (Nat.le_of_succ_le h), Fin.sum_univ_castSucc]
    rfl

/-- The 32 runs of 512 latent positions visit each of the 16384 positions once. -/
theorem sum_lat (f : Fin 16384 → EReal) : ∑ j : Fin 32, ∑ q : Fin 512, f (lat j q) = ∑ n : Fin 16384, f n :=
  (Cert.BlockSum.sum_runs 32 512 f).symm

/-- The full accumulator is the decoder product over the whole latent axis. -/
theorem accK_full (r : Fin 4096) (d : Fin 1024) :
    accK X E D pb lb mc s r d 32 le_rfl = ∑ n : Fin 16384, zK X E pb lb mc s r n * D (ix2 n d) := by
  rw [accK_eq_sum_parts]
  exact sum_lat fun n => zK X E pb lb mc s r n * D (ix2 n d)

/-! ## The postprocessing -/

/-- For reals with `s ≠ 0`: `A * (1 / s) + (pb / s + mc) = (A + pb) / s + mc`. Each division by the nonzero real is
    the product with its reciprocal; both sides are then coercions of real expressions equal by the ring laws. -/
theorem fold_postprocess (a p m t : ℝ) (ht : t ≠ 0) :
    (a : EReal) * Ideal.div 1 (t : EReal) + (Ideal.div (p : EReal) (t : EReal) + (m : EReal))
      = Ideal.div ((a : EReal) + (p : EReal)) (t : EReal) + (m : EReal) := by
  simp only [Ideal.div_coe ht]
  rw [← EReal.coe_one, ← EReal.coe_mul, ← EReal.coe_mul, ← EReal.coe_mul, ← EReal.coe_add, ← EReal.coe_add,
    ← EReal.coe_add, ← EReal.coe_mul, ← EReal.coe_add]
  congr 1
  ring

/-- The kernel's reconstruction is the reference's when all arguments are real and the scale is not zero. -/
theorem yK_eq_yR (hX : IsReal X) (hE : IsReal E) (hD : IsReal D) (hpb : IsReal pb) (hlb : IsReal lb)
    (hmc : IsReal mc) (hs : IsReal s) (hs0 : s ix0 ≠ 0) (r : Fin 4096) (d : Fin 1024) :
    yK X E D pb lb mc s r d = yR X E D pb lb mc s r d := by
  have hA : IsRealVal (∑ n : Fin 16384, zK X E pb lb mc s r n * D (ix2 n d)) :=
    isRealVal_sum _ _ fun n _ => isRealVal_mul (isRealVal_zK X E pb lb mc s hX hE hpb hlb hmc hs r n) (hD _)
  obtain ⟨a, ha⟩ := hA
  obtain ⟨p, hp⟩ := hpb (ix1 d)
  obtain ⟨m, hm⟩ := hmc (ix1 d)
  obtain ⟨t, ht⟩ := hs ix0
  have ht0 : t ≠ 0 := fun h => hs0 (by rw [ht, h]; rfl)
  unfold yK yR
  rw [accK_full]
  simp only [← zK_eq_zR X E pb lb mc s hX hpb hmc hs]
  rw [ha, hp, hm, ht]
  exact fold_postprocess a p m t ht0

end Cert.SaeLaw

end
-- ==== Proof.lean ====
/-
  A fused sparse-autoencoder forward pass — centre, scale and shift the tokens, encode with a clipped affine map,
  decode, undo the preprocessing — computed by a tiled kernel and by a plain reference, agree on the extended reals
  whenever every argument entry is a real number and the scale is not zero.

  The kernel's result arrays are read off its run block by block (what each grid point leaves in its buffers, by
  induction along the latent axis), the reference's off its straight-line run entry by entry; both are functions of
  the seven argument arrays, and the two pairs of functions are equal by the ring laws of the reals once every
  intermediate value is known to be a real number: x * s + (-(mc * s + pb)) = (x - mc) * s - pb before the encoder,
  acc * (1 / s) + (pb / s + mc) = (acc + pb) / s + mc after the decoder, and the decoder product accumulated over 32
  runs of 512 latent positions is the one product over all 16384. Where the scale is zero the reference divides by
  zero, so that point is outside the claim's domain. The kernel's idealization rewrote nothing.
-/
import proofs.«107824_g7980049236240_cont_sun_m_806_42_alg».proof.Defs
import proofs.«107824_g7980049236240_cont_sun_m_806_42_alg».proof.Proof.Gen.Kernel
import proofs.«107824_g7980049236240_cont_sun_m_806_42_alg».proof.Proof.Gen.Kernel.Skeleton
import proofs.«107824_g7980049236240_cont_sun_m_806_42_alg».proof.Proof.Gen.Kernel.Launch
import proofs.«107824_g7980049236240_cont_sun_m_806_42_alg».proof.Proof.Gen.Kernel.Points
import proofs.«107824_g7980049236240_cont_sun_m_806_42_alg».proof.Proof.Gen.Kernel.Frame
import proofs.«107824_g7980049236240_cont_sun_m_806_42_alg».proof.Proof.Gen.KernelIdeal
import proofs.«107824_g7980049236240_cont_sun_m_806_42_alg».proof.Proof.Gen.KernelIdeal.Skeleton
import proofs.«107824_g7980049236240_cont_sun_m_806_42_alg».proof.Proof.Gen.KernelIdeal.Launch
import proofs.«107824_g7980049236240_cont_sun_m_806_42_alg».proof.Proof.Gen.KernelIdeal.Points
import proofs.«107824_g7980049236240_cont_sun_m_806_42_alg».proof.Proof.Gen.KernelIdeal.Frame
import proofs.«107824_g7980049236240_cont_sun_m_806_42_alg».proof.Proof.Gen.ReferenceIdeal
import proofs.«107824_g7980049236240_cont_sun_m_806_42_alg».proof.Proof.Gen.Pre_finite_inputs
import proofs.«107824_g7980049236240_cont_sun_m_806_42_alg».proof.Proof.Gen.KernelIdeal.Value
import proofs.«107824_g7980049236240_cont_sun_m_806_42_alg».proof.Proof.Gen.ReferenceIdeal.Run
import proofs.«107824_g7980049236240_cont_sun_m_806_42_alg».proof.Proof.Gen.ReferenceIdeal.Read
import proofs.«107824_g7980049236240_cont_sun_m_806_42_alg».proof.Proof.KFinal
import proofs.«107824_g7980049236240_cont_sun_m_806_42_alg».proof.Proof.RefSide
import proofs.«107824_g7980049236240_cont_sun_m_806_42_alg».proof.Proof.PreFacts
import proofs.«107824_g7980049236240_cont_sun_m_806_42_alg».proof.Proof.SaeLaw
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as they were. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- The two idealized programs end with equal results: the kernel's arrays are its functions of the arguments, the
    reference's are the reference's functions of arguments that agree, and under the precondition (every entry real,
    the scale not zero) the two pairs of functions are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Final.yArr m c, fun c => Cert.KernelIdeal.Final.zArr m c, ?_, ?_⟩
  · exact (θ_run Cert.KernelIdeal.defs _ _).mono (fun r h c => ⟨(h c).2.1, (h c).1, (h c).2.2⟩)
      (Cert.KernelIdeal.Final.run m ρ)
  · refine (θ_run Cert.ReferenceIdeal.defs _ _).mono (fun r h c => ?_) (Cert.ReferenceIdeal.Value.run (F := Ideal) m' ρ')
    obtain ⟨hX, hE, hD, hpb, hlb, hmc, hs, hs0⟩ := Cert.PreFacts.facts_of_pre _ _ _ _ _ _ _ (hpre c)
    obtain ⟨a0, a1, a2, a3, a4, a5, a6⟩ := hagree c
    refine ⟨(h c).1.trans ?_, (h c).2.1.trans ?_, (h c).2.2⟩
    · rw [Cert.ReferenceIdeal.Read.val_main_v22_eq, Cert.RefSide.ref_y, a0, a1, a2, a3, a4, a5, a6]
      funext i
      exact (Cert.SaeLaw.yK_eq_yR _ _ _ _ _ _ _ hX hE hD hpb hlb hmc hs hs0 (i 0) (i 1)).symm
    · rw [Cert.ReferenceIdeal.Read.val_main_v13_eq, Cert.RefSide.ref_z, a0, a1, a3, a4, a5, a6]
      funext i
      exact (Cert.SaeLaw.zK_eq_zR _ _ _ _ _ _ hX hpb hmc hs (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
